-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x512 : Shape := ⟨3, ![16, 64, 512]⟩
abbrev S128x128 : Shape := ⟨2, ![128, 128]⟩
abbrev S128 : Shape := ⟨1, ![128]⟩
abbrev S_ : Shape := ⟨0, ![]⟩

class Facts : Prop where
  bcast_S_S16x64x512 : S_.BroadcastsInDim S16x64x512 (![] : Fin 0 → Fin S16x64x512.rank)
  reducesTo_S16x64x512_S_d0_1_2 : S16x64x512.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S16x64x512 .f32) (main_arg1 : FVec F S128x128 .f32) (main_arg2 : FVec F S128 .f32) (main_arg3 : FVec F S128x128 .f32) (main_arg4 : FVec F S128 .f32) : IVec S_ 1 :=
  let main_v0 : FVec F S16x64x512 .f32 := Host.absf main_arg0
  let main_cst : FVec F S_ .f32 := constant S_ .f32 0x7F800000#32
  let main_v1 : FVec F S16x64x512 .f32 := broadcastInDim S16x64x512 ![] bcast_S_S16x64x512 main_cst
  let main_v2 : IVec S16x64x512 1 := cmpf .olt main_v0 main_v1
  let main_c : IVec S_ 1 := constantI S_ 1 1#1
  let main_v3 : IVec S_ 1 := (fun x v => Host.reduce IntOp.andi x v reducesTo_S16x64x512_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S16x64x512 : Shape := ⟨3, ![16, 64, 512]⟩
abbrev S128x128 : Shape := ⟨2, ![128, 128]⟩
abbrev S128 : Shape := ⟨1, ![128]⟩
abbrev S16x256x128 : Shape := ⟨3, ![16, 256, 128]⟩
abbrev S1x128 : Shape := ⟨2, ![1, 128]⟩
abbrev S16x64x128 : Shape := ⟨3, ![16, 64, 128]⟩
abbrev S8x256x128 : Shape := ⟨3, ![8, 256, 128]⟩
abbrev S8x64x128 : Shape := ⟨3, ![8, 64, 128]⟩
abbrev S2048x128 : Shape := ⟨2, ![2048, 128]⟩
abbrev S1x256x128 : Shape := ⟨3, ![1, 256, 128]⟩
abbrev S256x128 : Shape := ⟨2, ![256, 128]⟩
abbrev S64x128 : Shape := ⟨2, ![64, 128]⟩
abbrev S1x64x128 : Shape := ⟨3, ![1, 64, 128]⟩

abbrev nBuf : Space → Nat
  | .hbm => 9
  | .vmem => 8
  | .smem => 0
  | _ => 0

abbrev bufTy : (tb : Table) → Fin (tcTables nBuf tb) → BufTy
  | .hbm, ⟨0, _⟩ => ⟨S16x64x512, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S16x256x128, .f32⟩
  | .hbm, ⟨6, _⟩ => ⟨S1x128, .f32⟩
  | .hbm, ⟨7, _⟩ => ⟨S1x128, .f32⟩
  | .hbm, ⟨8, _⟩ => ⟨S16x64x128, .f32⟩
  | .local _ .vmem, ⟨0, _⟩ => ⟨S8x256x128, .f32⟩
  | .local _ .vmem, ⟨1, _⟩ => ⟨S8x256x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S8x64x128, .f32⟩
  | .local _ .vmem, ⟨7, _⟩ => ⟨S8x64x128, .f32⟩
  | _, _ => ⟨S16x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x64x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16x64x512_S16x256x128 : S16x64x512.ShapeCasts S16x256x128
  shapeCasts_S128_S1x128 : S128.ShapeCasts S1x128
  inb_S8x256x128_S8x256x128_0_0_0 : ∀ a, (![0, 0, 0] : Fin 3 → Nat) a + S8x256x128.size a ≤ S8x256x128.size a
  h_S8x256x128 : 0 < S8x256x128.numel
  shapeCasts_S8x256x128_S8x256x128 : S8x256x128.ShapeCasts S8x256x128
  shapeCasts_S8x256x128_S2048x128 : S8x256x128.ShapeCasts S2048x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  shapeCasts_S2048x128_S8x256x128 : S2048x128.ShapeCasts S8x256x128
  slices_S8x256x128_o0_0_0_S1x256x128 : S8x256x128.Slices ![0, 0, 0] S1x256x128
  shapeCasts_S1x256x128_S256x128 : S1x256x128.ShapeCasts S256x128
  reduces_S256x128_S128 : S256x128.Reduces [0] S128
  broadcasts_S1x128_S64x128 : S1x128.Broadcasts S64x128
  inb_S8x64x128_S1x64x128_0_0_0 : ∀ a, (![0, 0, 0] : Fin 3 → Nat) a + S1x64x128.size a ≤ S8x64x128.size a
  h_S1x64x128 : 0 < S1x64x128.numel
  shapeCasts_S1x64x128_S64x128 : S1x64x128.ShapeCasts S64x128
  shapeCasts_S64x128_S1x64x128 : S64x128.ShapeCasts S1x64x128
  slices_S8x256x128_o1_0_0_S1x256x128 : S8x256x128.Slices ![1, 0, 0] S1x256x128
  inb_S8x64x128_S1x64x128_1_0_0 : ∀ a, (![1, 0, 0] : Fin 3 → Nat) a + S1x64x128.size a ≤ S8x64x128.size a
  slices_S8x256x128_o2_0_0_S1x256x128 : S8x256x128.Slices ![2, 0, 0] S1x256x128
  inb_S8x64x128_S1x64x128_2_0_0 : ∀ a, (![2, 0, 0] : Fin 3 → Nat) a + S1x64x128.size a ≤ S8x64x128.size a
  slices_S8x256x128_o3_0_0_S1x256x128 : S8x256x128.Slices ![3, 0, 0] S1x256x128
  inb_S8x64x128_S1x64x128_3_0_0 : ∀ a, (![3, 0, 0] : Fin 3 → Nat) a + S1x64x128.size a ≤ S8x64x128.size a
  slices_S8x256x128_o4_0_0_S1x256x128 : S8x256x128.Slices ![4, 0, 0] S1x256x128
  inb_S8x64x128_S1x64x128_4_0_0 : ∀ a, (![4, 0, 0] : Fin 3 → Nat) a + S1x64x128.size a ≤ S8x64x128.size a
  slices_S8x256x128_o5_0_0_S1x256x128 : S8x256x128.Slices ![5, 0, 0] S1x256x128
  inb_S8x64x128_S1x64x128_5_0_0 : ∀ a, (![5, 0, 0] : Fin 3 → Nat) a + S1x64x128.size a ≤ S8x64x128.size a
  slices_S8x256x128_o6_0_0_S1x256x128 : S8x256x128.Slices ![6, 0, 0] S1x256x128
  inb_S8x64x128_S1x64x128_6_0_0 : ∀ a, (![6, 0, 0] : Fin 3 → Nat) a + S1x64x128.size a ≤ S8x64x128.size a
  slices_S8x256x128_o7_0_0_S1x256x128 : S8x256x128.Slices ![7, 0, 0] S1x256x128
  inb_S8x64x128_S1x64x128_7_0_0 : ∀ a, (![7, 0, 0] : Fin 3 → Nat) a + S1x64x128.size a ≤ S8x64x128.size a
  dot_S2048x128_S128x128_S2048x128_1_0_0_1_n_n_wf : DotDims.WF S2048x128 S128x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x128.size a ≤ S16x256x128.size a
  hwx0_0 : ∀ i : grid0.Coords, EltTy.bits .f32 = 32 ∨ (Rect.block (s := S16x256x128) S8x256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x64x128.size a ≤ S16x64x128.size a
  hwx0_5 : ∀ i : grid0.Coords, EltTy.bits .f32 = 32 ∨ (Rect.block (s := S16x64x128) S8x64x128.size (cc0_transform_5 i) (hinb0_5 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf

abbrev win0_0 : Pipeline.Window sig grid0 :=
  Pipeline.Window.ofSpec (Memref.whole main_v0) S8x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S8x64x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x64x512 : Shape := ⟨3, ![16, 64, 512]⟩
abbrev S128x128 : Shape := ⟨2, ![128, 128]⟩
abbrev S128 : Shape := ⟨1, ![128]⟩
abbrev S16x64x1x512 : Shape := ⟨4, ![16, 64, 1, 512]⟩
abbrev S16x64x64x512 : Shape := ⟨4, ![16, 64, 64, 512]⟩
abbrev S16x1x64x512 : Shape := ⟨4, ![16, 1, 64, 512]⟩
abbrev S16x64x64x1024 : Shape := ⟨4, ![16, 64, 64, 1024]⟩
abbrev S524288x128 : Shape := ⟨2, ![524288, 128]⟩
abbrev S1x128 : Shape := ⟨2, ![1, 128]⟩
abbrev S_ : Shape := ⟨0, ![]⟩
abbrev S16x64x512x128 : Shape := ⟨4, ![16, 64, 512, 128]⟩
abbrev S16x64x128 : Shape := ⟨3, ![16, 64, 128]⟩

abbrev nBuf : Space → Nat
  | .hbm => 25
  | .vmem => 0
  | .smem => 0
  | _ => 0

abbrev bufTy : (tb : Table) → Fin (tcTables nBuf tb) → BufTy
  | .hbm, ⟨0, _⟩ => ⟨S16x64x512, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S16x64x1x512, .f32⟩
  | .hbm, ⟨6, _⟩ => ⟨S16x64x64x512, .f32⟩
  | .hbm, ⟨7, _⟩ => ⟨S16x1x64x512, .f32⟩
  | .hbm, ⟨8, _⟩ => ⟨S16x64x64x512, .f32⟩
  | .hbm, ⟨9, _⟩ => ⟨S16x64x64x1024, .f32⟩
  | .hbm, ⟨10, _⟩ => ⟨S524288x128, .f32⟩
  | .hbm, ⟨11, _⟩ => ⟨S524288x128, .f32⟩
  | .hbm, ⟨12, _⟩ => ⟨S1x128, .f32⟩
  | .hbm, ⟨13, _⟩ => ⟨S524288x128, .f32⟩
  | .hbm, ⟨14, _⟩ => ⟨S524288x128, .f32⟩
  | .hbm, ⟨15, _⟩ => ⟨S_, .f32⟩
  | .hbm, ⟨16, _⟩ => ⟨S524288x128, .f32⟩
  | .hbm, ⟨17, _⟩ => ⟨S524288x128, .f32⟩
  | .hbm, ⟨18, _⟩ => ⟨S524288x128, .f32⟩
  | .hbm, ⟨19, _⟩ => ⟨S1x128, .f32⟩
  | .hbm, ⟨20, _⟩ => ⟨S524288x128, .f32⟩
  | .hbm, ⟨21, _⟩ => ⟨S524288x128, .f32⟩
  | .hbm, ⟨22, _⟩ => ⟨S16x64x512x128, .f32⟩
  | .hbm, ⟨23, _⟩ => ⟨S_, .f32⟩
  | .hbm, ⟨24, _⟩ => ⟨S16x64x128, .f32⟩
  | _, _ => ⟨S16x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_cst : Ref sig .tc := ⟨.hbm, 15, rfl⟩
abbrev main_call0_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  bcast_S16x64x512_S16x64x1x512_0_1_3 : S16x64x512.BroadcastsInDim S16x64x1x512 (![0, 1, 3] : Fin 3 → Fin S16x64x1x512.rank)
  bcast_S16x64x1x512_S16x64x64x512_0_1_2_3 : S16x64x1x512.BroadcastsInDim S16x64x64x512 (![0, 1, 2, 3] : Fin 4 → Fin S16x64x64x512.rank)
  bcast_S16x64x512_S16x1x64x512_0_2_3 : S16x64x512.BroadcastsInDim S16x1x64x512 (![0, 2, 3] : Fin 3 → Fin S16x1x64x512.rank)
  bcast_S16x1x64x512_S16x64x64x512_0_1_2_3 : S16x1x64x512.BroadcastsInDim S16x64x64x512 (![0, 1, 2, 3] : Fin 4 → Fin S16x64x64x512.rank)
  concatenates_S16x64x64x512_S16x64x64x512_S16x64x64x1024_d3 : Shape.Concatenates [S16x64x64x512, S16x64x64x512] S16x64x64x1024 3
  shapeCasts_S16x64x64x1024_S524288x128 : S16x64x64x1024.ShapeCasts S524288x128
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  bcast_S_S524288x128 : S_.BroadcastsInDim S524288x128 (![] : Fin 0 → Fin S524288x128.rank)
  shapeCasts_S524288x128_S16x64x512x128 : S524288x128.ShapeCasts S16x64x512x128
  reducesTo_S16x64x512x128_S16x64x128_d2 : S16x64x512x128.ReducesTo [2] S16x64x128
  h_S_ : 0 < S_.numel
  dot_S524288x128_S128x128_S524288x128_1_0_0_1_n_n_wf : DotDims.WF S524288x128 S128x128 S524288x128 [1] [0] [0] [1] [] []

variable [Facts₀]

def dot_S524288x128_S128x128_S524288x128_1_0_0_1_n_n : DotDims S524288x128 S128x128 S524288x128 where
  lhsContracting := [1]
  rhsContracting := [0]
  lhsNonContracting := [0]
  rhsNonContracting := [1]
  lhsBatch := []
  rhsBatch := []
  wf := dot_S524288x128_S128x128_S524288x128_1_0_0_1_n_n_wf

class Facts : Prop extends Facts₀ where

variable [Facts]
-- ==== Proof.LibDenseRow.lean ====
/-
  A DENSE LAYER READ ROW BY ROW, at the ideal values.

  A dense layer sends a row `x` of `K` numbers to the row `j ↦ (∑ k, x k · w k j) + b j` of `N` numbers: each output row
  depends on the same row of the input and on nothing else of it.  Two spellings of it occur in printed programs and both
  are read here at an index `(p, c)` given by its coordinates:
  • on the vector unit, a matrix product into a zero accumulator plus a bias vector `[N]` cast to `[1, N]` and
    broadcast over the rows (`klayer_apply`);
  • on the host, a `dot_general` contracting the operand's columns with the weight's rows plus the bias broadcast
    first to `[1, N]` and then over the rows (`hlayer_apply`).
  Both take the facts about the contraction's dimension numbers as hypotheses (one contracted axis of extent `K`; the
  operand indices at output index `(p, c)` and contraction index `k` are `(p, k)` and `(k, c)`), which a program's
  record gives by evaluation.  Also: two arrays joined along the columns read at `(p, k)` (`concat_cols_apply`), the
  rows side by side (`cat`).  No algebra of the extended reals is used: no sum is regrouped.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.DenseRow

open Idealize.ShloMosaic Idealize.ShloMosaic.ValueIdx

/-! ## Rows -/

/-- Two rows side by side: the first `A` entries are `x`'s, the next `B` are `y`'s. -/
def cat {A B C : ℕ} (hC : C = A + B) (x : Fin A → EReal) (y : Fin B → EReal) (k : Fin C) : EReal :=
  if h : k.val < A then x ⟨k.val, h⟩ else y ⟨k.val - A, by have := k.isLt; omega⟩

/-- A dense layer on one row: `j ↦ (∑ k, x k · w k j) + b j`. -/
def layer {K N : ℕ} (x : Fin K → EReal) (w : Fin K → Fin N → EReal) (b : Fin N → EReal) (j : Fin N) : EReal :=
  (∑ k : Fin K, x k * w k j) + b j

/-- The activation on one row: the larger of each entry and the level `z` (zero, for a rectifier). -/
def act {N : ℕ} (z : EReal) (x : Fin N → EReal) (j : Fin N) : EReal := max (x j) z

/-! ## Two arrays joined along the columns -/

/-- `[R, A]` and `[R, B]` joined along axis 1, read at `(p, k)`: row `p` of the first beside row `p` of the second. -/
theorem concat_cols_apply {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) (p : Fin R) (k : Fin C) :
    concatenate ⟨2, ![R, C]⟩ (1 : Fin 2) [⟨⟨2, ![R, A]⟩, x₁⟩, ⟨⟨2, ![R, B]⟩, x₂⟩] h (ix2 p k)
      = cat hC (fun a => x₁ (ix2 p a)) (fun b => x₂ (ix2 p b)) k := by
  unfold cat
  by_cases hk : k.val < A
  · rw [dif_pos hk]
    refine concatenate_pair_apply_left (1 : Fin 2) x₁ x₂ h (ix2 p k) rfl (ix2 p ⟨k.val, hk⟩) fun b => ?_
    match b with
    | ⟨0, _⟩ => rfl
    | ⟨1, _⟩ => rfl
  · rw [dif_neg hk]
    have hkC := k.isLt
    refine concatenate_pair_apply_right (1 : Fin 2) x₁ x₂ h (ix2 p k) rfl rfl (ix2 p ⟨k.val - A, by omega⟩) (fun b hb => ?_) ?_
    · match b with
      | ⟨0, _⟩ => rfl
      | ⟨1, _⟩ => exact absurd rfl hb
    · show (k.val - A) + A = k.val
      omega

/-! ## The contraction as a sum over the contracted extent -/

/-- The sum over a one-axis contraction index, re-indexed by that axis's coordinate. -/
theorem contr_sum {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (l : FVec Ideal ⟨2, ![R, K]⟩ φ₁) (r : FVec Ideal ⟨2, ![K, N]⟩ φ₂) (p : Fin R) (c : Fin N) :
    (∑ q : d.contr.Idx, l (d.lhsIdx (ix2 p c) q) * r (d.rhsIdx (ix2 p c) q)) = ∑ k : Fin K, l (ix2 p k) * r (ix2 k c) := by
  rw [← Equiv.sum_comp (contrEquiv1 d K hr hs).symm]
  exact Finset.sum_congr rfl fun k _ => by rw [hl p c k, hrr p c k]

/-! ## The layer on the vector unit -/

/-- A matrix product into the zero accumulator plus the bias `[N]` cast to `[1, N]` and broadcast over the rows, read
    at `(p, c)`: the dense layer of row `p`. -/
theorem klayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (p : Fin R) (c : Fin N) :
    addf (matmul d prec a (shapeCast ⟨2, ![K, N]⟩ w hw) (constant ⟨2, ![R, N]⟩ .f32 0x00000000#32))
        (broadcastTo ⟨2, ![R, N]⟩ (shapeCast ⟨2, ![1, N]⟩ b hc) hb) (ix2 p c)
      = layer (fun k => a (ix2 p k)) (fun k j => w (ix2 k j)) (fun j => b (ix1 j)) c := by
  show FloatOps.matmul d prec a (shapeCast ⟨2, ![K, N]⟩ w hw) (constant ⟨2, ![R, N]⟩ .f32 0x00000000#32) (ix2 p c)
      + broadcastTo ⟨2, ![R, N]⟩ (shapeCast ⟨2, ![1, N]⟩ b hc) hb (ix2 p c) = _
  rw [Ideal.matmul_constant_zero_apply, contr_sum d hr hs hl hrr, shapeCast_self, broadcastTo_1b_ab_apply,
    shapeCast_a_1a_apply]
  rfl

/-! ## The layer on the host -/

/-- A `dot_general` contracting the operand's columns with the weight's rows plus the bias broadcast to `[1, N]` and then
    over the rows, read at `(p, c)`: the dense layer of row `p`. -/
theorem hlayer_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (p : Fin R) (c : Fin N) :
    addf (Host.dotGeneral d prec a w)
        (broadcastInDim ⟨2, ![R, N]⟩ ![0, 1] h2 (broadcastInDim ⟨2, ![1, N]⟩ ![1] h1 b)) (ix2 p c)
      = layer (fun k => a (ix2 p k)) (fun k j => w (ix2 k j)) (fun j => b (ix1 j)) c := by
  show Host.dotGeneral d prec a w (ix2 p c)
      + broadcastInDim ⟨2, ![R, N]⟩ ![0, 1] h2 (broadcastInDim ⟨2, ![1, N]⟩ ![1] h1 b) (ix2 p c) = _
  have e2 : broadcastInDim ⟨2, ![R, N]⟩ ![0, 1] h2 (broadcastInDim ⟨2, ![1, N]⟩ ![1] h1 b) (ix2 p c)
      = broadcastInDim ⟨2, ![1, N]⟩ ![1] h1 b (ix2 (0 : Fin 1) c) :=
    broadcastInDim_apply _ h2 _ (ix2 p c) (ix2 (0 : Fin 1) c) fun ax => by
      match ax with
      | ⟨0, _⟩ => show 0 = if (1 : ℕ) = 1 then 0 else p.val; rw [if_pos rfl]
      | ⟨1, _⟩ =>
        show c.val = if N = 1 then 0 else c.val
        split
        · have := c.isLt; omega
        · rfl
  have e1 : broadcastInDim ⟨2, ![1, N]⟩ ![1] h1 b (ix2 (0 : Fin 1) c) = b (ix1 c) :=
    broadcastInDim_apply _ h1 b (ix2 (0 : Fin 1) c) (ix1 c) fun ax => by
      match ax with
      | ⟨0, _⟩ =>
        show c.val = if N = 1 then 0 else c.val
        split
        · have := c.isLt; omega
        · rfl
  rw [e2, e1]
  simp only [Host.dotGeneral]
  rw [Ideal.dotGeneral_apply, contr_sum d hr hs hl hrr]
  rfl

/-! ## Whole arrays, row by row

The same three operations as functions of whole arrays with any number `R` of rows: a kernel's block of rows and a
reference's full array are then the SAME function at two row counts, and because each output row depends only on the same
input row, a block of the result is the function of the blocks (`layerArr_rows`, `actArr_rows`, `catArr_rows`). -/

/-- The dense layer applied to every row of `a`. -/
def layerArr {R K N : ℕ} (a : (⟨2, ![R, K]⟩ : Shape).Idx → EReal) (w : (⟨2, ![K, N]⟩ : Shape).Idx → EReal)
    (b : (⟨1, ![N]⟩ : Shape).Idx → EReal) : (⟨2, ![R, N]⟩ : Shape).Idx → EReal :=
  fun i => layer (fun k => a (ix2 (idxEquiv2 (n0 := R) (n1 := N) i).1 k)) (fun k j => w (ix2 k j)) (fun j => b (ix1 j))
    (idxEquiv2 (n0 := R) (n1 := N) i).2

/-- The activation applied to every entry. -/
def actArr {s : Shape} (z : EReal) (y : s.Idx → EReal) : s.Idx → EReal := fun i => max (y i) z

/-- Two arrays with the same rows, side by side. -/
def catArr {R A B C : ℕ} (hC : C = A + B) (x₁ : (⟨2, ![R, A]⟩ : Shape).Idx → EReal) (x₂ : (⟨2, ![R, B]⟩ : Shape).Idx → EReal) :
    (⟨2, ![R, C]⟩ : Shape).Idx → EReal :=
  fun i => cat hC (fun a => x₁ (ix2 (idxEquiv2 (n0 := R) (n1 := C) i).1 a)) (fun b => x₂ (ix2 (idxEquiv2 (n0 := R) (n1 := C) i).1 b))
    (idxEquiv2 (n0 := R) (n1 := C) i).2

theorem layerArr_apply {R K N : ℕ} (a : (⟨2, ![R, K]⟩ : Shape).Idx → EReal) (w : (⟨2, ![K, N]⟩ : Shape).Idx → EReal)
    (b : (⟨1, ![N]⟩ : Shape).Idx → EReal) (p : Fin R) (c : Fin N) :
    layerArr a w b (ix2 p c) = layer (fun k => a (ix2 p k)) (fun k j => w (ix2 k j)) (fun j => b (ix1 j)) c := rfl

theorem catArr_apply {R A B C : ℕ} (hC : C = A + B) (x₁ : (⟨2, ![R, A]⟩ : Shape).Idx → EReal) (x₂ : (⟨2, ![R, B]⟩ : Shape).Idx → EReal)
    (p : Fin R) (k : Fin C) : catArr hC x₁ x₂ (ix2 p k) = cat hC (fun a => x₁ (ix2 p a)) (fun b => x₂ (ix2 p b)) k := rfl

/-- Row `p` of the layer of `a` is row `σ p` of the layer of `A` when row `p` of `a` is row `σ p` of `A`. -/
theorem layerArr_rows {R R' K N : ℕ} (a : (⟨2, ![R, K]⟩ : Shape).Idx → EReal) (A : (⟨2, ![R', K]⟩ : Shape).Idx → EReal)
    (w : (⟨2, ![K, N]⟩ : Shape).Idx → EReal) (b : (⟨1, ![N]⟩ : Shape).Idx → EReal) (p : Fin R) (p' : Fin R')
    (h : ∀ k : Fin K, a (ix2 p k) = A (ix2 p' k)) (c : Fin N) :
    layerArr a w b (ix2 p c) = layerArr A w b (ix2 p' c) := by
  rw [layerArr_apply, layerArr_apply, show (fun k => a (ix2 p k)) = fun k => A (ix2 p' k) from funext h]

theorem actArr_rows {R R' N : ℕ} (z : EReal) (y : (⟨2, ![R, N]⟩ : Shape).Idx → EReal) (Y : (⟨2, ![R', N]⟩ : Shape).Idx → EReal)
    (p : Fin R) (p' : Fin R') (h : ∀ k : Fin N, y (ix2 p k) = Y (ix2 p' k)) (c : Fin N) :
    actArr z y (ix2 p c) = actArr z Y (ix2 p' c) := by
  show max (y (ix2 p c)) z = max (Y (ix2 p' c)) z
  rw [h c]

theorem catArr_rows {R R' A B C : ℕ} (hC : C = A + B) (x₁ : (⟨2, ![R, A]⟩ : Shape).Idx → EReal) (x₂ : (⟨2, ![R, B]⟩ : Shape).Idx → EReal)
    (X₁ : (⟨2, ![R', A]⟩ : Shape).Idx → EReal) (X₂ : (⟨2, ![R', B]⟩ : Shape).Idx → EReal) (p : Fin R) (p' : Fin R')
    (h₁ : ∀ k : Fin A, x₁ (ix2 p k) = X₁ (ix2 p' k)) (h₂ : ∀ k : Fin B, x₂ (ix2 p k) = X₂ (ix2 p' k)) (c : Fin C) :
    catArr hC x₁ x₂ (ix2 p c) = catArr hC X₁ X₂ (ix2 p' c) := by
  rw [catArr_apply, catArr_apply, show (fun a => x₁ (ix2 p a)) = fun a => X₁ (ix2 p' a) from funext h₁,
    show (fun b => x₂ (ix2 p b)) = fun b => X₂ (ix2 p' b) from funext h₂]

/-- The vector unit's layer, as a whole array. -/
theorem klayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (hw : (⟨2, ![K, N]⟩ : Shape).ShapeCasts ⟨2, ![K, N]⟩) (b : FVec Ideal ⟨1, ![N]⟩ .f32)
    (hc : (⟨1, ![N]⟩ : Shape).ShapeCasts ⟨2, ![1, N]⟩) (hb : (⟨2, ![1, N]⟩ : Shape).Broadcasts ⟨2, ![R, N]⟩) :
    addf (matmul d prec a (shapeCast ⟨2, ![K, N]⟩ w hw) (constant ⟨2, ![R, N]⟩ .f32 0x00000000#32))
        (broadcastTo ⟨2, ![R, N]⟩ (shapeCast ⟨2, ![1, N]⟩ b hc) hb)
      = layerArr a w b := by
  funext i
  obtain ⟨p, c, rfl⟩ : ∃ (p : Fin R) (c : Fin N), i = ix2 p c := ⟨i 0, i 1, eq_ix2 i⟩
  exact klayer_apply d hr hs hl hrr prec a w hw b hc hb p c

/-- The host's layer, as a whole array. -/
theorem hlayerArr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1]) :
    addf (Host.dotGeneral d prec a w)
        (broadcastInDim ⟨2, ![R, N]⟩ ![0, 1] h2 (broadcastInDim ⟨2, ![1, N]⟩ ![1] h1 b))
      = layerArr a w b := by
  funext i
  obtain ⟨p, c, rfl⟩ : ∃ (p : Fin R) (c : Fin N), i = ix2 p c := ⟨i 0, i 1, eq_ix2 i⟩
  exact hlayer_apply d hr hs hl hrr prec a w b h1 h2 p c

/-- Two arrays joined along the columns, as a whole array. -/
theorem concatArr {R A B C : ℕ} (hC : C = A + B)
    (x₁ : (⟨2, ![R, A]⟩ : Shape).Idx → EReal) (x₂ : (⟨2, ![R, B]⟩ : Shape).Idx → EReal)
    (h : Shape.Concatenates [(⟨2, ![R, A]⟩ : Shape), ⟨2, ![R, B]⟩] ⟨2, ![R, C]⟩ (1 : Fin 2)) :
    concatenate ⟨2, ![R, C]⟩ (1 : Fin 2) [⟨⟨2, ![R, A]⟩, x₁⟩, ⟨⟨2, ![R, B]⟩, x₂⟩] h = catArr hC x₁ x₂ := by
  funext i
  obtain ⟨p, c, rfl⟩ : ∃ (p : Fin R) (c : Fin C), i = ix2 p c := ⟨i 0, i 1, eq_ix2 i⟩
  exact concat_cols_apply hC x₁ x₂ h p c

end Cert.DenseRow

end
-- ==== Proof.LibRowBias.lean ====
/-
  A DENSE LAYER WHOSE BIAS ARRIVES AS ONE ROW, AND THE RECTIFIER, at the ideal values.

  Stated over LibDenseRow's dense layer `layerArr` and activation `actArr`.  A kernel often receives
  its bias already laid out as a one-row array `[1, N]` (the reshape from `[N]` is done outside the kernel); the body then
  casts `[1, N]` to itself and broadcasts it over the rows.  Read here at an index `(p, c)` and as a whole array generic in
  the row count:
  • `klayer1_apply`, `klayer1Arr`: a matrix product into the zero accumulator plus such a bias is LibDenseRow's dense layer
    `layerArr a w (unrow v)`, where `unrow v` is the bias's one row as a vector;
  • `unrow_cast`: a vector cast to one row and read back as a vector is itself (the host's reshape undone);
  • `kact`, `hact`: the larger of an array and the zero word splat over it (vector unit), or the zero constant broadcast
    from a scalar (host), is LibDenseRow's activation `actArr zf` at the level `zf`, the value of the all-zero word, which is
    never evaluated.
  No algebra of the extended reals is used.
-/
import proofs.«149732_j34351148434013_2_alg».proof.Proof.LibDenseRow

noncomputable section

open scoped BigOperators

namespace Cert.RowBias

open Idealize.ShloMosaic Idealize.ShloMosaic.ValueIdx Cert.DenseRow

/-- The one row of a `[1, N]` array, as a vector of `N` numbers. -/
def unrow {N : ℕ} (v : (⟨2, ![1, N]⟩ : Shape).Idx → EReal) : (⟨1, ![N]⟩ : Shape).Idx → EReal :=
  fun i => v (ix2 (0 : Fin 1) (i 0))

theorem unrow_apply {N : ℕ} (v : (⟨2, ![1, N]⟩ : Shape).Idx → EReal) (j : Fin N) : unrow v (ix1 j) = v (ix2 (0 : Fin 1) j) := rfl

/-- A vector cast to one row and read back as a vector is itself. -/
theorem unrow_cast {N : ℕ} (x : (⟨1, ![N]⟩ : Shape).Idx → EReal) (h : (⟨1, ![N]⟩ : Shape).ShapeCasts ⟨2, ![1, N]⟩) :
    unrow (shapeCast ⟨2, ![1, N]⟩ x h) = x := by
  funext i
  rw [eq_ix1 i]
  exact shapeCast_a_1a_apply x h 0 (i 0)

/-- The level a rectifier compares with: the value of the all-zero word. -/
def zf : EReal := Ideal.ofBits .f32 0x00000000#32

/-! ## The vector unit's layer with a one-row bias -/

/-- A matrix product into the zero accumulator plus a one-row bias `[1, N]` cast to itself and broadcast over the rows,
    read at `(p, c)`: the dense layer of row `p` with the bias's one row. -/
theorem klayer1_apply {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩)
    (p : Fin R) (c : Fin N) :
    addf (matmul d prec a w (constant ⟨2, ![R, N]⟩ .f32 0x00000000#32))
        (broadcastTo ⟨2, ![R, N]⟩ (shapeCast ⟨2, ![1, N]⟩ v hc) hb) (ix2 p c)
      = layer (fun k => a (ix2 p k)) (fun k j => w (ix2 k j)) (fun j => unrow v (ix1 j)) c := by
  show FloatOps.matmul d prec a w (constant ⟨2, ![R, N]⟩ .f32 0x00000000#32) (ix2 p c)
      + broadcastTo ⟨2, ![R, N]⟩ (shapeCast ⟨2, ![1, N]⟩ v hc) hb (ix2 p c) = _
  rw [Ideal.matmul_constant_zero_apply, contr_sum d hr hs hl hrr, shapeCast_self, broadcastTo_1b_ab_apply]
  rfl

/-- The same, as a whole array. -/
theorem klayer1Arr {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (prec : Option ContractPrecision) (a : FVec Ideal ⟨2, ![R, K]⟩ φ₁) (w : FVec Ideal ⟨2, ![K, N]⟩ φ₂)
    (v : FVec Ideal ⟨2, ![1, N]⟩ .f32)
    (hc : (⟨2, ![1, N]⟩ : Shape).ShapeCasts ⟨2, ![1, N]⟩) (hb : (⟨2, ![1, N]⟩ : Shape).Broadcasts ⟨2, ![R, N]⟩) :
    addf (matmul d prec a w (constant ⟨2, ![R, N]⟩ .f32 0x00000000#32))
        (broadcastTo ⟨2, ![R, N]⟩ (shapeCast ⟨2, ![1, N]⟩ v hc) hb)
      = layerArr a w (unrow v) := by
  funext i
  obtain ⟨p, c, rfl⟩ : ∃ (p : Fin R) (c : Fin N), i = ix2 p c := ⟨i 0, i 1, eq_ix2 i⟩
  exact klayer1_apply d hr hs hl hrr prec a w v hc hb p c

/-! ## The rectifier's two spellings -/

/-- On the vector unit: the larger of the array and the zero word splat over it. -/
theorem kact {s : Shape} (y : FVec Ideal s .f32) :
    maximumf y (broadcast s (Scalar.ofBits (F := Ideal) .f32 0x00000000#32)) = actArr zf y := rfl

/-- On the host: the larger of the array and the zero constant broadcast from a scalar. -/
theorem hact {s : Shape} (y : FVec Ideal s .f32) (h : (⟨0, ![]⟩ : Shape).BroadcastsInDim s ![]) :
    maximumf y (broadcastInDim s ![] h (constant (F := Ideal) ⟨0, ![]⟩ .f32 0x00000000#32)) = actArr zf y := by
  funext i
  show max (y i) (broadcastInDim s ![] h (constant (F := Ideal) ⟨0, ![]⟩ .f32 0x00000000#32) i) = max (y i) zf
  rw [broadcastInDim_apply _ h _ i ix0 (fun a => a.elim0)]
  rfl

end Cert.RowBias

end
-- ==== Proof.LibDenseStep.lean ====
/-
  DENSE LAYERS STEP BY STEP, at the ideal values: from what the operand's row is to what the result's row is.

  Stated over LibDenseRow's row functions `layer` and `act`.  Each lemma takes as a hypothesis what row `p` of the operand is
  (`ha`) and what the weight's entries are (`hw`), and returns row `p` of the result, so that a chain of layers is read by
  nesting them.  Two spellings: on the vector unit (a matrix product into the zero accumulator; a one-row bias `[1, N]` cast
  to itself and broadcast over the rows; the rectifier against the zero word splat) and on the host (`dot_general`; the bias
  `[N]` broadcast to `[1, N]` and then over the rows; the rectifier against the zero constant broadcast from a scalar).
  Also: the host's broadcasts of a constant, of a column across columns, and the other keep-dimension broadcasts of a
  batch of tables, read at an index; and two tactics that decide, for a printed contraction record that contracts the
  operand's columns with the weight's rows, which operand entries an output entry reads.
  No algebra of the extended reals is used.
-/
import proofs.«149732_j34351148434013_2_alg».proof.Proof.LibRowBias

noncomputable section

open scoped BigOperators

namespace Cert.DenseStep

open Idealize.ShloMosaic Idealize.ShloMosaic.ValueIdx Cert.DenseRow Cert.RowBias

/-! ## The contraction records: operand indices at an output index -/

/-- For a record contracting the operand's columns with the weight's rows: the operand index at output `(p, c)` and
    contraction coordinate `k` is `(p, k)`. -/
macro "plain_lhs " d:ident K:num : tactic => `(tactic| (
  intro p c k
  funext a
  apply Fin.ext
  match a with
  | ⟨0, _⟩ =>
    show (DotDims.lhsIdx $d (ix2 p c) ((contrEquiv1 $d $K rfl rfl).symm k) 0).val = p.val
    unfold DotDims.lhsIdx
    rw [dif_neg (by decide), dif_pos (by decide)]
    rfl
  | ⟨1, _⟩ => exact (DotDims.lhsIdx_val_of_single $d rfl _ _).trans (contrEquiv1_symm_val $d $K rfl rfl k)))

/-- … and the weight index is `(k, c)`. -/
macro "plain_rhs " d:ident K:num : tactic => `(tactic| (
  intro p c k
  funext a
  apply Fin.ext
  match a with
  | ⟨0, _⟩ => exact (DotDims.rhsIdx_val_of_single $d rfl _ _).trans (contrEquiv1_symm_val $d $K rfl rfl k)
  | ⟨1, _⟩ =>
    show (DotDims.rhsIdx $d (ix2 p c) ((contrEquiv1 $d $K rfl rfl).symm k) 1).val = c.val
    unfold DotDims.rhsIdx
    rw [dif_neg (by decide), dif_pos (by decide)]
    rfl))

/-! ## Step lemmas: from the operand's row to the result's row -/

/-- A matrix product into the zero accumulator, at `(p, c)`, given the operand's row `p` and the weight's entries. -/
theorem kmm_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (wm : Fin K → Fin N → EReal) (hw : ∀ k j, w (ix2 k j) = wm k j)
    (c : Fin N) :
    matmul d none a w (constant ⟨2, ![R, N]⟩ .f32 0x00000000#32) (ix2 p c) = ∑ k : Fin K, xr k * wm k c := by
  show FloatOps.matmul d none a w (constant ⟨2, ![R, N]⟩ .f32 0x00000000#32) (ix2 p c) = _
  rw [Ideal.matmul_constant_zero_apply, contr_sum d hr hs hl hrr]
  exact Finset.sum_congr rfl fun k _ => by rw [ha k, hw k c]

/-- A one-row bias `[1, N]` cast to itself and broadcast over the rows, at `(p, c)`. -/
theorem kbias_row {R N : ℕ} (v : FVec Ideal ⟨2, ![1, N]⟩ .f32) (hc : (⟨2, ![1, N]⟩ : Shape).ShapeCasts ⟨2, ![1, N]⟩)
    (hb : (⟨2, ![1, N]⟩ : Shape).Broadcasts ⟨2, ![R, N]⟩) (p : Fin R) (c : Fin N) :
    broadcastTo ⟨2, ![R, N]⟩ (shapeCast ⟨2, ![1, N]⟩ v hc) hb (ix2 p c) = v (ix2 (0 : Fin 1) c) := by
  rw [shapeCast_self, broadcastTo_1b_ab_apply]

/-- A dense layer (product into the zero accumulator plus the one-row bias), at `(p, c)`. -/
theorem klayer_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (wm : Fin K → Fin N → EReal) (hw : ∀ k j, w (ix2 k j) = wm k j)
    (v : FVec Ideal ⟨2, ![1, N]⟩ .f32) (hc : (⟨2, ![1, N]⟩ : Shape).ShapeCasts ⟨2, ![1, N]⟩)
    (hb : (⟨2, ![1, N]⟩ : Shape).Broadcasts ⟨2, ![R, N]⟩) (c : Fin N) :
    addf (matmul d none a w (constant ⟨2, ![R, N]⟩ .f32 0x00000000#32))
        (broadcastTo ⟨2, ![R, N]⟩ (shapeCast ⟨2, ![1, N]⟩ v hc) hb) (ix2 p c)
      = layer xr wm (fun j => v (ix2 (0 : Fin 1) j)) c := by
  show matmul d none a w (constant ⟨2, ![R, N]⟩ .f32 0x00000000#32) (ix2 p c)
      + broadcastTo ⟨2, ![R, N]⟩ (shapeCast ⟨2, ![1, N]⟩ v hc) hb (ix2 p c) = _
  rw [kmm_row d hr hs hl hrr a w p xr ha wm hw c, kbias_row v hc hb p c]
  rfl

/-- The same followed by the rectifier. -/
theorem klayer_relu_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (wm : Fin K → Fin N → EReal) (hw : ∀ k j, w (ix2 k j) = wm k j)
    (v : FVec Ideal ⟨2, ![1, N]⟩ .f32) (hc : (⟨2, ![1, N]⟩ : Shape).ShapeCasts ⟨2, ![1, N]⟩)
    (hb : (⟨2, ![1, N]⟩ : Shape).Broadcasts ⟨2, ![R, N]⟩) (c : Fin N) :
    maximumf (addf (matmul d none a w (constant ⟨2, ![R, N]⟩ .f32 0x00000000#32))
        (broadcastTo ⟨2, ![R, N]⟩ (shapeCast ⟨2, ![1, N]⟩ v hc) hb))
        (broadcast ⟨2, ![R, N]⟩ (Scalar.ofBits (F := Ideal) .f32 0x00000000#32)) (ix2 p c)
      = act zf (layer xr wm (fun j => v (ix2 (0 : Fin 1) j))) c :=
  congrArg (fun y => max y zf) (klayer_row d hr hs hl hrr a w p xr ha wm hw v hc hb c)

/-- A weight behind a cast to its own shape reads as itself. -/
theorem self_cast {K N : ℕ} {φ : FTy} (w : FVec Ideal ⟨2, ![K, N]⟩ φ) (h : (⟨2, ![K, N]⟩ : Shape).ShapeCasts ⟨2, ![K, N]⟩)
    (k : Fin K) (j : Fin N) : shapeCast ⟨2, ![K, N]⟩ w h (ix2 k j) = w (ix2 k j) :=
  congrFun (shapeCast_self w h) _

/-! ## The host's spellings -/

/-- A `dot_general`, at `(p, c)`, given the operand's row `p` and the weight's entries. -/
theorem hmm_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (c : Fin N) :
    Host.dotGeneral d none a w (ix2 p c) = ∑ k : Fin K, xr k * w (ix2 k c) := by
  simp only [Host.dotGeneral]
  rw [Ideal.dotGeneral_apply, contr_sum d hr hs hl hrr]
  exact Finset.sum_congr rfl fun k _ => by rw [ha k]

/-- The host's dense layer, at `(p, c)`. -/
theorem hlayer_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (c : Fin N) :
    addf (Host.dotGeneral d none a w)
        (broadcastInDim ⟨2, ![R, N]⟩ ![0, 1] h2 (broadcastInDim ⟨2, ![1, N]⟩ ![1] h1 b)) (ix2 p c)
      = layer xr (fun k j => w (ix2 k j)) (fun j => b (ix1 j)) c := by
  rw [hlayer_apply d hr hs hl hrr none a w b h1 h2 p c, show (fun k => a (ix2 p k)) = xr from funext ha]

/-- A constant broadcast from a scalar reads the constant's value everywhere. -/
theorem hconst {s : Shape} {φ : FTy} (w : BitVec φ.bits) (h : (⟨0, ![]⟩ : Shape).BroadcastsInDim s ![]) (i : s.Idx) :
    broadcastInDim s ![] h (constant (F := Ideal) ⟨0, ![]⟩ φ w) i = Ideal.ofBits φ w := by
  rw [broadcastInDim_apply _ h _ i ix0 (fun a => a.elim0)]
  rfl

/-- The host's rectifier at an index. -/
theorem hrelu {s : Shape} (y : FVec Ideal s .f32) (h : (⟨0, ![]⟩ : Shape).BroadcastsInDim s ![]) (i : s.Idx) :
    maximumf y (broadcastInDim s ![] h (constant (F := Ideal) ⟨0, ![]⟩ .f32 0x00000000#32)) i = max (y i) zf :=
  congrFun (hact y h) i

/-- The host's dense layer followed by its rectifier. -/
theorem hlayer_relu_row {R K N : ℕ} {φ₁ φ₂ : FTy} (d : DotDims ⟨2, ![R, K]⟩ ⟨2, ![K, N]⟩ ⟨2, ![R, N]⟩)
    (hr : d.contr.rank = 1) (hs : d.contr.size ⟨0, by omega⟩ = K)
    (hl : ∀ (p : Fin R) (c : Fin N) (k : Fin K), d.lhsIdx (ix2 p c) ((contrEquiv1 d K hr hs).symm k) = ix2 p k)
    (hrr : ∀ (p : Fin R) (c : Fin N) (k : Fin K), d.rhsIdx (ix2 p c) ((contrEquiv1 d K hr hs).symm k) = ix2 k c)
    (a : FVec Ideal ⟨2, ![R, K]⟩ φ₁) (w : FVec Ideal ⟨2, ![K, N]⟩ φ₂) (p : Fin R)
    (xr : Fin K → EReal) (ha : ∀ k, a (ix2 p k) = xr k) (b : FVec Ideal ⟨1, ![N]⟩ .f32)
    (h1 : (⟨1, ![N]⟩ : Shape).BroadcastsInDim ⟨2, ![1, N]⟩ ![1]) (h2 : (⟨2, ![1, N]⟩ : Shape).BroadcastsInDim ⟨2, ![R, N]⟩ ![0, 1])
    (h0 : (⟨0, ![]⟩ : Shape).BroadcastsInDim ⟨2, ![R, N]⟩ ![]) (c : Fin N) :
    maximumf (addf (Host.dotGeneral d none a w)
        (broadcastInDim ⟨2, ![R, N]⟩ ![0, 1] h2 (broadcastInDim ⟨2, ![1, N]⟩ ![1] h1 b)))
        (broadcastInDim ⟨2, ![R, N]⟩ ![] h0 (constant (F := Ideal) ⟨0, ![]⟩ .f32 0x00000000#32)) (ix2 p c)
      = act zf (layer xr (fun k j => w (ix2 k j)) (fun j => b (ix1 j))) c :=
  (hrelu _ h0 (ix2 p c)).trans (congrArg (fun y => max y zf) (hlayer_row d hr hs hl hrr a w p xr ha b h1 h2 c))

variable {α : Type}

/-- A column `[R, 1]` broadcast across `N` columns. -/
theorem hbcast_col {R N : ℕ} (v : (⟨2, ![R, 1]⟩ : Shape).Idx → α) (h : (⟨2, ![R, 1]⟩ : Shape).BroadcastsInDim ⟨2, ![R, N]⟩ ![0, 1])
    (r : Fin R) (k : Fin N) : broadcastInDim ⟨2, ![R, N]⟩ ![0, 1] h v (ix2 r k) = v (ix2 r (0 : Fin 1)) :=
  broadcastInDim_apply _ h v (ix2 r k) (ix2 r (0 : Fin 1)) fun ax => by
    match ax with
    | ⟨0, _⟩ =>
      show r.val = if R = 1 then 0 else r.val
      split
      · have := r.isLt; omega
      · rfl
    | ⟨1, _⟩ => rfl

/-- A vector `[A]` as a column `[A, 1]`. -/
theorem hbcast_vec_col {A : ℕ} (v : (⟨1, ![A]⟩ : Shape).Idx → α) (h : (⟨1, ![A]⟩ : Shape).BroadcastsInDim ⟨2, ![A, 1]⟩ ![0])
    (b : Fin A) (u : Fin 1) : broadcastInDim ⟨2, ![A, 1]⟩ ![0] h v (ix2 b u) = v (ix1 b) :=
  broadcastInDim_apply _ h v (ix2 b u) (ix1 b) fun ax => by
    match ax with
    | ⟨0, _⟩ =>
      show b.val = if A = 1 then 0 else b.val
      split
      · have := b.isLt; omega
      · rfl

/-- A per-table row `[A, C]` with a unit row axis inserted, `[A, 1, C]`. -/
theorem hbcast_ac_a1c {A C : ℕ} (v : (⟨2, ![A, C]⟩ : Shape).Idx → α)
    (h : (⟨2, ![A, C]⟩ : Shape).BroadcastsInDim ⟨3, ![A, 1, C]⟩ ![0, 2]) (b : Fin A) (u : Fin 1) (k : Fin C) :
    broadcastInDim ⟨3, ![A, 1, C]⟩ ![0, 2] h v (ix3 b u k) = v (ix2 b k) :=
  broadcastInDim_apply _ h v (ix3 b u k) (ix2 b k) fun ax => by
    match ax with
    | ⟨0, _⟩ =>
      show b.val = if A = 1 then 0 else b.val
      split
      · have := b.isLt; omega
      · rfl
    | ⟨1, _⟩ =>
      show k.val = if C = 1 then 0 else k.val
      split
      · have := k.isLt; omega
      · rfl

/-- `[A, 1, C]` repeated over a table's `B` rows. -/
theorem hbcast_a1c_abc {A B C : ℕ} (v : (⟨3, ![A, 1, C]⟩ : Shape).Idx → α)
    (h : (⟨3, ![A, 1, C]⟩ : Shape).BroadcastsInDim ⟨3, ![A, B, C]⟩ ![0, 1, 2]) (b : Fin A) (n : Fin B) (k : Fin C) :
    broadcastInDim ⟨3, ![A, B, C]⟩ ![0, 1, 2] h v (ix3 b n k) = v (ix3 b (0 : Fin 1) k) :=
  broadcastInDim_apply _ h v (ix3 b n k) (ix3 b (0 : Fin 1) k) fun ax => by
    match ax with
    | ⟨0, _⟩ =>
      show b.val = if A = 1 then 0 else b.val
      split
      · have := b.isLt; omega
      · rfl
    | ⟨1, _⟩ => rfl
    | ⟨2, _⟩ =>
      show k.val = if C = 1 then 0 else k.val
      split
      · have := k.isLt; omega
      · rfl

/-- A per-row number `[A, B]` with a unit column axis appended, `[A, B, 1]`. -/
theorem hbcast_ab_ab1 {A B : ℕ} (v : (⟨2, ![A, B]⟩ : Shape).Idx → α)
    (h : (⟨2, ![A, B]⟩ : Shape).BroadcastsInDim ⟨3, ![A, B, 1]⟩ ![0, 1]) (b : Fin A) (n : Fin B) (u : Fin 1) :
    broadcastInDim ⟨3, ![A, B, 1]⟩ ![0, 1] h v (ix3 b n u) = v (ix2 b n) :=
  broadcastInDim_apply _ h v (ix3 b n u) (ix2 b n) fun ax => by
    match ax with
    | ⟨0, _⟩ =>
      show b.val = if A = 1 then 0 else b.val
      split
      · have := b.isLt; omega
      · rfl
    | ⟨1, _⟩ =>
      show n.val = if B = 1 then 0 else n.val
      split
      · have := n.isLt; omega
      · rfl

/-- `[A, B, 1]` repeated across `C` columns. -/
theorem hbcast_ab1_abc {A B C : ℕ} (v : (⟨3, ![A, B, 1]⟩ : Shape).Idx → α)
    (h : (⟨3, ![A, B, 1]⟩ : Shape).BroadcastsInDim ⟨3, ![A, B, C]⟩ ![0, 1, 2]) (b : Fin A) (n : Fin B) (k : Fin C) :
    broadcastInDim ⟨3, ![A, B, C]⟩ ![0, 1, 2] h v (ix3 b n k) = v (ix3 b n (0 : Fin 1)) :=
  broadcastInDim_apply _ h v (ix3 b n k) (ix3 b n (0 : Fin 1)) fun ax => by
    match ax with
    | ⟨0, _⟩ =>
      show b.val = if A = 1 then 0 else b.val
      split
      · have := b.isLt; omega
      · rfl
    | ⟨1, _⟩ =>
      show n.val = if B = 1 then 0 else n.val
      split
      · have := n.isLt; omega
      · rfl
    | ⟨2, _⟩ => rfl

end Cert.DenseStep

end
-- ==== Proof.EdgeSpec.lean ====
/-
  THE MAXIMUM OF A TWO-LAYER PERCEPTRON OVER THE 128-BLOCKS OF ONE BATCH ELEMENT.

  An array x of 16 batch elements, 64 channels and 512 time steps is cut, channel by channel, into blocks of 128
  consecutive time steps: batch element b has 64 * 4 = 256 blocks, block j being quarter j % 4 of channel j / 4.
  Every block is sent through the perceptron row -> (max (row * W1 + b1) 0) * W2 + b2, a row of 128 numbers, and the
  result at (b, c, o) is the largest entry o over the 256 blocks of b (folded from the value of the word of minus
  infinity); it does not depend on the channel c.

  A second way of listing blocks arrives at the same number.  For a channel c, list 512 rows: row t is quarter t % 8 of c
  itself when t % 8 < 4, and quarter t % 8 - 4 of channel t / 8 otherwise.  The second kind alone runs through every block of
  the batch element (t = 8 * (j / 4) + 4 + j % 4 is block j), and the first kind adds only blocks that are already there, so
  both lists have the same set of values and the same maximum (fold_max_range: a fold of max only sees the set of values).
  No algebra of the extended reals beyond the order is used.
-/
import Idealize.ShloMosaic.Lib.ValueIdx
import Idealize.ShloMosaic.PureOps.Ideal.Laws
import proofs.«149732_j34351148434013_2_alg».proof.Proof.LibDenseStep

noncomputable section

open scoped BigOperators

namespace Cert.EdgeMax

open Idealize.ShloMosaic Idealize.ShloMosaic.ValueIdx Cert.DenseRow Cert.RowBias

abbrev Xs : Shape := ⟨3, ![16, 64, 512]⟩
abbrev Ws : Shape := ⟨2, ![128, 128]⟩
abbrev Bs : Shape := ⟨1, ![128]⟩
abbrev Os : Shape := ⟨3, ![16, 64, 128]⟩

/-- The perceptron on one row of 128 numbers: a dense layer, the rectifier, a second dense layer. -/
def mlp (W1 : Ws.Idx → EReal) (b1 : Bs.Idx → EReal) (W2 : Ws.Idx → EReal) (b2 : Bs.Idx → EReal) (row : Fin 128 → EReal) :
    Fin 128 → EReal :=
  layer (act zf (layer row (fun k j => W1 (ix2 k j)) (fun j => b1 (ix1 j)))) (fun k j => W2 (ix2 k j)) (fun j => b2 (ix1 j))

/-- Block `j` of batch element `b`: quarter `j % 4` of channel `j / 4`. -/
def blk (x : Xs.Idx → EReal) (b : Fin 16) (j : Fin 256) (k : Fin 128) : EReal :=
  x (ix3 b (⟨j.val / 4, by have := j.isLt; omega⟩ : Fin 64) (⟨j.val % 4 * 128 + k.val, by have := k.isLt; omega⟩ : Fin 512))

/-- The value the maximum is folded from: that of the word of minus infinity (never evaluated). -/
def ninf : EReal := Ideal.ofBits .f32 0xFF800000#32

/-- The result: at `(b, c, o)` the largest entry `o` of the perceptron over the 256 blocks of `b`. -/
def G (x : Xs.Idx → EReal) (W1 : Ws.Idx → EReal) (b1 : Bs.Idx → EReal) (W2 : Ws.Idx → EReal) (b2 : Bs.Idx → EReal) :
    Os.Idx → EReal := fun i =>
  (Finset.univ : Finset (Fin 256)).fold max ninf (fun j => mlp W1 b1 W2 b2 (blk x (i 0) j) (i 2))

theorem G_apply (x : Xs.Idx → EReal) (W1 : Ws.Idx → EReal) (b1 : Bs.Idx → EReal) (W2 : Ws.Idx → EReal) (b2 : Bs.Idx → EReal)
    (b : Fin 16) (c : Fin 64) (o : Fin 128) :
    G x W1 b1 W2 b2 (ix3 b c o)
      = (Finset.univ : Finset (Fin 256)).fold max ninf (fun j => mlp W1 b1 W2 b2 (blk x b j) o) := rfl

/-- The block that row `t` of channel `c`'s list of 512 rows is. -/
def jOf (c : Fin 64) (t : Fin 512) : Fin 256 :=
  if h : t.val % 8 < 4 then ⟨c.val * 4 + t.val % 8, by have := c.isLt; omega⟩
  else ⟨t.val / 8 * 4 + (t.val % 8 - 4), by have := t.isLt; omega⟩

/-- A fold of `max` depends only on the set of values folded. -/
theorem fold_max_range {α ι κ : Type} [LinearOrder α] [Fintype ι] [Fintype κ] (b : α) (f : ι → α) (g : κ → α)
    (h1 : ∀ i, ∃ j, f i = g j) (h2 : ∀ j, ∃ i, g j = f i) :
    (Finset.univ : Finset ι).fold max b f = (Finset.univ : Finset κ).fold max b g := by
  apply le_antisymm
  · rw [Finset.fold_max_le]
    refine ⟨(Finset.le_fold_max _).2 (Or.inl le_rfl), fun i _ => ?_⟩
    obtain ⟨j, hj⟩ := h1 i
    exact (Finset.le_fold_max _).2 (Or.inr ⟨j, Finset.mem_univ j, hj.le⟩)
  · rw [Finset.fold_max_le]
    refine ⟨(Finset.le_fold_max _).2 (Or.inl le_rfl), fun j _ => ?_⟩
    obtain ⟨i, hi⟩ := h2 j
    exact (Finset.le_fold_max _).2 (Or.inr ⟨i, Finset.mem_univ i, hi.le⟩)

/-- Every block of the batch element is in channel `c`'s list. -/
theorem jOf_onto (c : Fin 64) (j : Fin 256) : ∃ t : Fin 512, jOf c t = j := by
  have hj := j.isLt
  refine ⟨⟨j.val / 4 * 8 + 4 + j.val % 4, by omega⟩, ?_⟩
  unfold jOf
  rw [dif_neg (by show ¬ (j.val / 4 * 8 + 4 + j.val % 4) % 8 < 4; omega)]
  exact Fin.ext (by show (j.val / 4 * 8 + 4 + j.val % 4) / 8 * 4 + ((j.val / 4 * 8 + 4 + j.val % 4) % 8 - 4) = j.val; omega)

/-- The maximum over channel `c`'s list of 512 rows is the maximum over the 256 blocks: `G`. -/
theorem list_max_eq_G (x : Xs.Idx → EReal) (W1 : Ws.Idx → EReal) (b1 : Bs.Idx → EReal) (W2 : Ws.Idx → EReal) (b2 : Bs.Idx → EReal)
    (b : Fin 16) (c : Fin 64) (o : Fin 128) :
    (Finset.univ : Finset (Fin 512)).fold max ninf (fun t => mlp W1 b1 W2 b2 (blk x b (jOf c t)) o)
      = G x W1 b1 W2 b2 (ix3 b c o) := by
  rw [G_apply]
  refine fold_max_range _ _ _ (fun t => ⟨jOf c t, rfl⟩) (fun j => ?_)
  obtain ⟨t, ht⟩ := jOf_onto c j
  exact ⟨t, by rw [ht]⟩

end Cert.EdgeMax

end
-- ==== Proof.KernelRows.lean ====
/-
  THE KERNEL BODY'S ARITHMETIC, READ AT AN INDEX.

  The body loads a block of 8 batch elements, each of 256 rows of 128 numbers, flattens it to 2048 rows, sends every row
  through the perceptron (two matrix products into zero accumulators, each plus a one-row bias, the rectifier between),
  and folds the 2048 result rows back to 8 slabs of 256.  Row g * 256 + r of the flattened block is row r of slab g, and a
  dense layer's output row depends on the same input row only, so entry (g, r, o) of the folded result is the perceptron
  of row r of slab g at o (hidden_apply).  Slab g is then reduced over its 256 rows by a maximum folded from the word of
  minus infinity, and the 128 maxima are repeated down 64 rows: entry (c, o) of what is stored for slab g is the largest
  entry o over the slab's rows, whatever c is (slab_max).
-/
import proofs.«149732_j34351148434013_2_alg».proof.Proof.Gen.KernelIdeal.Skeleton
import proofs.«149732_j34351148434013_2_alg».proof.Proof.EdgeSpec
import Idealize.ShloMosaic.Lib.Pipeline.Value
import Idealize.ShloMosaic.Lib.ValueLayout

noncomputable section

open scoped BigOperators

namespace Cert.KernelIdeal.Rows

open Idealize.ShloMosaic Idealize.ShloMosaic.ValueIdx Cert.KernelIdeal Cert.KernelIdeal.Gen
open Cert.DenseRow Cert.RowBias Cert.DenseStep Cert.EdgeMax

/-- The operand entry a product entry `(p, c)` reads at contraction coordinate `k`: `(p, k)`. -/
theorem dot_lhs : ∀ (p : Fin 2048) (c : Fin 128) (k : Fin 128),
    dot_S2048x128_S128x128_S2048x128_1_0_0_1_n_n.lhsIdx (ix2 p c)
      ((contrEquiv1 dot_S2048x128_S128x128_S2048x128_1_0_0_1_n_n 128 rfl rfl).symm k) = ix2 p k := by
  plain_lhs dot_S2048x128_S128x128_S2048x128_1_0_0_1_n_n 128

/-- … and the weight entry: `(k, c)`. -/
theorem dot_rhs : ∀ (p : Fin 2048) (c : Fin 128) (k : Fin 128),
    dot_S2048x128_S128x128_S2048x128_1_0_0_1_n_n.rhsIdx (ix2 p c)
      ((contrEquiv1 dot_S2048x128_S128x128_S2048x128_1_0_0_1_n_n 128 rfl rfl).symm k) = ix2 k c := by
  plain_rhs dot_S2048x128_S128x128_S2048x128_1_0_0_1_n_n 128

/-- Row `g * 256 + r` of the flattened block is row `r` of slab `g`. -/
def flat (g : Fin 8) (r : Fin 256) : Fin 2048 := ⟨g.val * 256 + r.val, by have := g.isLt; have := r.isLt; omega⟩

theorem flat_row (P0 : Vec Ideal S8x256x128 .f32) (g : Fin 8) (r : Fin 256) (k : Fin 128) :
    (truncf (F := Ideal) .bf16 (shapeCast S2048x128 (shapeCast S8x256x128 P0 shapeCasts_S8x256x128_S8x256x128) shapeCasts_S8x256x128_S2048x128)
      bitsLt_bf16_f32 (ix2 (flat g r) k) : EReal) = P0 (ix3 g r k) := by
  show shapeCast S2048x128 (shapeCast S8x256x128 P0 shapeCasts_S8x256x128_S8x256x128) shapeCasts_S8x256x128_S2048x128
      (ix2 (flat g r) k) = P0 (ix3 g r k)
  rw [shapeCast_self]
  exact shapeCast_apply _ _ _ (ix3 g r k) (by
    rw [Shape.rowMajor_val_three, Shape.rowMajor_val_two]
    show (g.val * 256 + r.val) * 128 + k.val = (g.val * 256 + r.val) * 128 + k.val
    rfl)

/-- Entry `(g, r, o)` of the folded result: the perceptron of row `r` of slab `g`, at `o`. -/
theorem hidden_apply (P0 : Vec Ideal S8x256x128 .f32) (P1 P2 : Vec Ideal S128x128 .f32) (P3 P4 : Vec Ideal S1x128 .f32)
    (g : Fin 8) (r : Fin 256) (o : Fin 128) :
    k0_pay3 P0 P1 P2 P3 P4 (ix3 g r o) = mlp P1 (unrow P3) P2 (unrow P4) (fun k => P0 (ix3 g r k)) o := by
  unfold k0_pay3
  refine (shapeCast_apply _ _ (ix3 g r o) (ix2 (flat g r) o) (by
    rw [Shape.rowMajor_val_two, Shape.rowMajor_val_three]
    show (g.val * 256 + r.val) * 128 + o.val = (g.val * 256 + r.val) * 128 + o.val
    rfl)).trans ?_
  refine (klayer_row dot_S2048x128_S128x128_S2048x128_1_0_0_1_n_n rfl rfl dot_lhs dot_rhs _ _ (flat g r)
    (act zf (layer (fun k => P0 (ix3 g r k)) (fun k j => P1 (ix2 k j)) (fun j => P3 (ix2 (0 : Fin 1) j)))) ?_
    (fun k j => P2 (ix2 k j)) (fun _ _ => rfl) _ _ _ o).trans rfl
  intro k
  exact klayer_relu_row dot_S2048x128_S128x128_S2048x128_1_0_0_1_n_n rfl rfl dot_lhs dot_rhs _ _ (flat g r)
    (fun k => P0 (ix3 g r k)) (flat_row P0 g r) (fun k j => P1 (ix2 k j)) (fun _ _ => rfl) _ _ _ k

/-- What is stored for slab `g`, at `(c, o)`: the largest entry `o` over the slab's 256 rows, folded from the value of the
    word of minus infinity — the same for every `c`. -/
theorem slab_max (v : FVec Ideal S8x256x128 .f32) (g : Fin 8) (hs : S8x256x128.Slices ![g.val, 0, 0] S1x256x128)
    (c : Fin 64) (o : Fin 128) :
    shapeCast S1x64x128 (broadcastTo S64x128 (shapeCast S1x128 (shapeCast S1x128
        (multiReduction .maximumf [0] S128 (shapeCast S256x128 (extractStridedSlice S1x256x128 ![g.val, 0, 0] v hs)
          shapeCasts_S1x256x128_S256x128) 0xFF800000#32 reduces_S256x128_S128 (.inl rfl) rfl)
        shapeCasts_S128_S1x128) shapeCasts_S1x128_S1x128) broadcasts_S1x128_S64x128) shapeCasts_S64x128_S1x64x128
        (ix3 (0 : Fin 1) c o)
      = (Finset.univ : Finset (Fin 256)).fold max ninf (fun r => v (ix3 g r o)) := by
  refine (shapeCast_apply _ _ (ix3 (0 : Fin 1) c o) (ix2 c o) (by
    rw [Shape.rowMajor_val_two, Shape.rowMajor_val_three]
    show c.val * 128 + o.val = ((0 : Fin 1).val * 64 + c.val) * 128 + o.val
    simp)).trans ?_
  rw [broadcastTo_1b_ab_apply, shapeCast_self]
  refine (shapeCast_a_1a_apply _ _ 0 o).trans ?_
  refine (Ideal.multiReduction_maximumf_single _ _ _ _ _ (ix1 o)).trans ?_
  show (Finset.univ : Finset (Fin 256)).fold max ninf _ = _
  congr 1
  funext r
  refine (shapeCast_apply _ _ _ (ix3 (0 : Fin 1) r o) (by
    rw [Shape.rowMajor_val_three, Shape.rowMajor_val_two]
    show ((0 : Fin 1).val * 256 + r.val) * 128 + o.val = r.val * 128 + o.val
    simp)).trans ?_
  refine extractStridedSlice_apply _ _ _ _ (ix3 g r o) (fun a => ?_)
  match a with
  | ⟨0, _⟩ => show g.val = g.val + (0 : Fin 1).val; simp
  | ⟨1, _⟩ => show r.val = 0 + r.val; simp
  | ⟨2, _⟩ => show o.val = 0 + o.val; simp

/-! ## The eight stores: slab by slab, the largest perceptron entry over the slab's rows -/

/-- The number stored at `(g, c, o)` of the output block, as a function of the loaded blocks. -/
def slabMax (P0 : Vec Ideal S8x256x128 .f32) (P1 P2 : Vec Ideal S128x128 .f32) (P3 P4 : Vec Ideal S1x128 .f32)
    (g : Fin 8) (o : Fin 128) : EReal :=
  (Finset.univ : Finset (Fin 256)).fold max ninf (fun r => mlp P1 (unrow P3) P2 (unrow P4) (fun k => P0 (ix3 g r k)) o)

theorem slab_hidden (P0 : Vec Ideal S8x256x128 .f32) (P1 P2 : Vec Ideal S128x128 .f32) (P3 P4 : Vec Ideal S1x128 .f32)
    (g : Fin 8) (o : Fin 128) :
    (Finset.univ : Finset (Fin 256)).fold max ninf (fun r => k0_pay3 P0 P1 P2 P3 P4 (ix3 g r o)) = slabMax P0 P1 P2 P3 P4 g o := by
  unfold slabMax
  congr 1
  funext r
  exact hidden_apply P0 P1 P2 P3 P4 g r o

theorem stored0 (P0 : Vec Ideal S8x256x128 .f32) (P1 P2 : Vec Ideal S128x128 .f32) (P3 P4 : Vec Ideal S1x128 .f32)
    (c : Fin 64) (o : Fin 128) :
    k0_pay4 P0 P1 P2 P3 P4 (ix3 (0 : Fin 1) c o) = slabMax P0 P1 P2 P3 P4 ⟨0, by decide⟩ o := by
  rw [← slab_hidden]
  unfold k0_pay4
  exact slab_max (k0_pay3 P0 P1 P2 P3 P4) ⟨0, by decide⟩ slices_S8x256x128_o0_0_0_S1x256x128 c o

theorem stored1 (P0 : Vec Ideal S8x256x128 .f32) (P1 P2 : Vec Ideal S128x128 .f32) (P3 P4 : Vec Ideal S1x128 .f32)
    (c : Fin 64) (o : Fin 128) :
    k0_pay6 (k0_pay5 P0 P1 P2 P3 P4) (ix3 (0 : Fin 1) c o) = slabMax P0 P1 P2 P3 P4 ⟨1, by decide⟩ o := by
  rw [← slab_hidden]
  unfold k0_pay6 k0_pay5
  exact slab_max (k0_pay3 P0 P1 P2 P3 P4) ⟨1, by decide⟩ slices_S8x256x128_o1_0_0_S1x256x128 c o

theorem stored2 (P0 : Vec Ideal S8x256x128 .f32) (P1 P2 : Vec Ideal S128x128 .f32) (P3 P4 : Vec Ideal S1x128 .f32)
    (c : Fin 64) (o : Fin 128) :
    k0_pay7 (k0_pay3 P0 P1 P2 P3 P4) (ix3 (0 : Fin 1) c o) = slabMax P0 P1 P2 P3 P4 ⟨2, by decide⟩ o := by
  rw [← slab_hidden]
  unfold k0_pay7
  exact slab_max (k0_pay3 P0 P1 P2 P3 P4) ⟨2, by decide⟩ slices_S8x256x128_o2_0_0_S1x256x128 c o

theorem stored3 (P0 : Vec Ideal S8x256x128 .f32) (P1 P2 : Vec Ideal S128x128 .f32) (P3 P4 : Vec Ideal S1x128 .f32)
    (c : Fin 64) (o : Fin 128) :
    k0_pay8 (k0_pay3 P0 P1 P2 P3 P4) (ix3 (0 : Fin 1) c o) = slabMax P0 P1 P2 P3 P4 ⟨3, by decide⟩ o := by
  rw [← slab_hidden]
  unfold k0_pay8
  exact slab_max (k0_pay3 P0 P1 P2 P3 P4) ⟨3, by decide⟩ slices_S8x256x128_o3_0_0_S1x256x128 c o

theorem stored4 (P0 : Vec Ideal S8x256x128 .f32) (P1 P2 : Vec Ideal S128x128 .f32) (P3 P4 : Vec Ideal S1x128 .f32)
    (c : Fin 64) (o : Fin 128) :
    k0_pay9 (k0_pay3 P0 P1 P2 P3 P4) (ix3 (0 : Fin 1) c o) = slabMax P0 P1 P2 P3 P4 ⟨4, by decide⟩ o := by
  rw [← slab_hidden]
  unfold k0_pay9
  exact slab_max (k0_pay3 P0 P1 P2 P3 P4) ⟨4, by decide⟩ slices_S8x256x128_o4_0_0_S1x256x128 c o

theorem stored5 (P0 : Vec Ideal S8x256x128 .f32) (P1 P2 : Vec Ideal S128x128 .f32) (P3 P4 : Vec Ideal S1x128 .f32)
    (c : Fin 64) (o : Fin 128) :
    k0_pay10 (k0_pay3 P0 P1 P2 P3 P4) (ix3 (0 : Fin 1) c o) = slabMax P0 P1 P2 P3 P4 ⟨5, by decide⟩ o := by
  rw [← slab_hidden]
  unfold k0_pay10
  exact slab_max (k0_pay3 P0 P1 P2 P3 P4) ⟨5, by decide⟩ slices_S8x256x128_o5_0_0_S1x256x128 c o

theorem stored6 (P0 : Vec Ideal S8x256x128 .f32) (P1 P2 : Vec Ideal S128x128 .f32) (P3 P4 : Vec Ideal S1x128 .f32)
    (c : Fin 64) (o : Fin 128) :
    k0_pay1 (k0_pay3 P0 P1 P2 P3 P4) (ix3 (0 : Fin 1) c o) = slabMax P0 P1 P2 P3 P4 ⟨6, by decide⟩ o := by
  rw [← slab_hidden]
  unfold k0_pay1
  exact slab_max (k0_pay3 P0 P1 P2 P3 P4) ⟨6, by decide⟩ slices_S8x256x128_o6_0_0_S1x256x128 c o

theorem stored7 (P0 : Vec Ideal S8x256x128 .f32) (P1 P2 : Vec Ideal S128x128 .f32) (P3 P4 : Vec Ideal S1x128 .f32)
    (c : Fin 64) (o : Fin 128) :
    k0_pay2 (k0_pay3 P0 P1 P2 P3 P4) (ix3 (0 : Fin 1) c o) = slabMax P0 P1 P2 P3 P4 ⟨7, by decide⟩ o := by
  rw [← slab_hidden]
  unfold k0_pay2
  exact slab_max (k0_pay3 P0 P1 P2 P3 P4) ⟨7, by decide⟩ slices_S8x256x128_o7_0_0_S1x256x128 c o

end Cert.KernelIdeal.Rows

end
-- ==== Proof.KernelBlock.lean ====
/-
  WHAT THE KERNEL BODY LEAVES IN ITS OUTPUT BLOCK.

  The body writes its output block of 8 slabs, each 64 rows of 128 numbers, by eight stores, one per slab; the slabs tile the
  block.  The store for slab g puts at every (c, o) the largest perceptron entry o over the 256 rows of slab g of the loaded
  block (Rows.stored0 … stored7).  So the block after the body holds, at (g, c, o), that maximum (out_apply): of the eight
  stored pieces, the one covering (g, c, o) is slab g's, read at (0, c, o).
-/
import proofs.«149732_j34351148434013_2_alg».proof.Proof.Gen.KernelIdeal.Frame
import proofs.«149732_j34351148434013_2_alg».proof.Proof.KernelRows

set_option maxRecDepth 16384

noncomputable section

namespace Cert.KernelIdeal.Block

open Idealize.ShloMosaic Idealize.ShloMosaic.ValueIdx Cert.KernelIdeal Cert.KernelIdeal.Gen Cert.KernelIdeal.Rows
open Cert.RowBias Cert.EdgeMax

theorem zero3 : (![0, 0, 0] : Fin 3 → Nat) = fun _ => 0 := funext fun a => by fin_cases a <;> rfl
theorem zero2 : (![0, 0] : Fin 2 → Nat) = fun _ => 0 := funext fun a => by fin_cases a <;> rfl

/-- Eight pieces, piece `g` covering slab `g` and holding `E g o` at every `(0, c, o)`: together they hold `E g o` at
    `(g, c, o)`. -/
theorem canon_slabs (q0 q1 q2 q3 q4 q5 q6 q7 : Vec Ideal S1x64x128 .f32) (E : Fin 8 → Fin 128 → EReal)
    (h0 : ∀ (c : Fin 64) (o : Fin 128), q0 (ix3 (0 : Fin 1) c o) = E ⟨0, by decide⟩ o)
    (h1 : ∀ (c : Fin 64) (o : Fin 128), q1 (ix3 (0 : Fin 1) c o) = E ⟨1, by decide⟩ o)
    (h2 : ∀ (c : Fin 64) (o : Fin 128), q2 (ix3 (0 : Fin 1) c o) = E ⟨2, by decide⟩ o)
    (h3 : ∀ (c : Fin 64) (o : Fin 128), q3 (ix3 (0 : Fin 1) c o) = E ⟨3, by decide⟩ o)
    (h4 : ∀ (c : Fin 64) (o : Fin 128), q4 (ix3 (0 : Fin 1) c o) = E ⟨4, by decide⟩ o)
    (h5 : ∀ (c : Fin 64) (o : Fin 128), q5 (ix3 (0 : Fin 1) c o) = E ⟨5, by decide⟩ o)
    (h6 : ∀ (c : Fin 64) (o : Fin 128), q6 (ix3 (0 : Fin 1) c o) = E ⟨6, by decide⟩ o)
    (h7 : ∀ (c : Fin 64) (o : Fin 128), q7 (ix3 (0 : Fin 1) c o) = E ⟨7, by decide⟩ o)
    (g : Fin 8) (c : Fin 64) (o : Fin 128) :
    View.canon ([⟨r0_10, q7⟩, ⟨r0_9, q6⟩, ⟨r0_8, q5⟩, ⟨r0_7, q4⟩, ⟨r0_6, q3⟩, ⟨r0_5, q2⟩, ⟨r0_4, q1⟩, ⟨r0_3, q0⟩] :
      List (View.Piece (Elt Ideal) S8x64x128 .f32)) (ix3 g c o) = E g o := by
  refine View.canon_apply_of_pieces (fun y : S8x64x128.Idx => E (y 0) (y 2)) _ ?_ (ix3 g c o) (cover0_5 q7 q6 q5 q4 q3 q2 q1 q0 _)
  intro p hp
  simp only [List.mem_cons, List.not_mem_nil, or_false] at hp
  rcases hp with rfl | rfl | rfl | rfl | rfl | rfl | rfl | rfl
  · intro x
    obtain ⟨u, c', o', rfl⟩ : ∃ (u : Fin 1) (c' : Fin 64) (o' : Fin 128), x = ix3 u c' o' := ⟨x 0, x 1, x 2, eq_ix3 x⟩
    obtain rfl : u = 0 := Subsingleton.elim _ _
    refine (h7 c' o').trans ?_
    show E ⟨7, by decide⟩ o' = E ((r0_10.emb (ix3 (0 : Fin 1) c' o')) 0) ((r0_10.emb (ix3 (0 : Fin 1) c' o')) 2)
    congr 1 <;> exact Fin.ext (by simp [Rect.emb_apply])
  · intro x
    obtain ⟨u, c', o', rfl⟩ : ∃ (u : Fin 1) (c' : Fin 64) (o' : Fin 128), x = ix3 u c' o' := ⟨x 0, x 1, x 2, eq_ix3 x⟩
    obtain rfl : u = 0 := Subsingleton.elim _ _
    refine (h6 c' o').trans ?_
    show E ⟨6, by decide⟩ o' = E ((r0_9.emb (ix3 (0 : Fin 1) c' o')) 0) ((r0_9.emb (ix3 (0 : Fin 1) c' o')) 2)
    congr 1 <;> exact Fin.ext (by simp [Rect.emb_apply])
  · intro x
    obtain ⟨u, c', o', rfl⟩ : ∃ (u : Fin 1) (c' : Fin 64) (o' : Fin 128), x = ix3 u c' o' := ⟨x 0, x 1, x 2, eq_ix3 x⟩
    obtain rfl : u = 0 := Subsingleton.elim _ _
    refine (h5 c' o').trans ?_
    show E ⟨5, by decide⟩ o' = E ((r0_8.emb (ix3 (0 : Fin 1) c' o')) 0) ((r0_8.emb (ix3 (0 : Fin 1) c' o')) 2)
    congr 1 <;> exact Fin.ext (by simp [Rect.emb_apply])
  · intro x
    obtain ⟨u, c', o', rfl⟩ : ∃ (u : Fin 1) (c' : Fin 64) (o' : Fin 128), x = ix3 u c' o' := ⟨x 0, x 1, x 2, eq_ix3 x⟩
    obtain rfl : u = 0 := Subsingleton.elim _ _
    refine (h4 c' o').trans ?_
    show E ⟨4, by decide⟩ o' = E ((r0_7.emb (ix3 (0 : Fin 1) c' o')) 0) ((r0_7.emb (ix3 (0 : Fin 1) c' o')) 2)
    congr 1 <;> exact Fin.ext (by simp [Rect.emb_apply])
  · intro x
    obtain ⟨u, c', o', rfl⟩ : ∃ (u : Fin 1) (c' : Fin 64) (o' : Fin 128), x = ix3 u c' o' := ⟨x 0, x 1, x 2, eq_ix3 x⟩
    obtain rfl : u = 0 := Subsingleton.elim _ _
    refine (h3 c' o').trans ?_
    show E ⟨3, by decide⟩ o' = E ((r0_6.emb (ix3 (0 : Fin 1) c' o')) 0) ((r0_6.emb (ix3 (0 : Fin 1) c' o')) 2)
    congr 1 <;> exact Fin.ext (by simp [Rect.emb_apply])
  · intro x
    obtain ⟨u, c', o', rfl⟩ : ∃ (u : Fin 1) (c' : Fin 64) (o' : Fin 128), x = ix3 u c' o' := ⟨x 0, x 1, x 2, eq_ix3 x⟩
    obtain rfl : u = 0 := Subsingleton.elim _ _
    refine (h2 c' o').trans ?_
    show E ⟨2, by decide⟩ o' = E ((r0_5.emb (ix3 (0 : Fin 1) c' o')) 0) ((r0_5.emb (ix3 (0 : Fin 1) c' o')) 2)
    congr 1 <;> exact Fin.ext (by simp [Rect.emb_apply])
  · intro x
    obtain ⟨u, c', o', rfl⟩ : ∃ (u : Fin 1) (c' : Fin 64) (o' : Fin 128), x = ix3 u c' o' := ⟨x 0, x 1, x 2, eq_ix3 x⟩
    obtain rfl : u = 0 := Subsingleton.elim _ _
    refine (h1 c' o').trans ?_
    show E ⟨1, by decide⟩ o' = E ((r0_4.emb (ix3 (0 : Fin 1) c' o')) 0) ((r0_4.emb (ix3 (0 : Fin 1) c' o')) 2)
    congr 1 <;> exact Fin.ext (by simp [Rect.emb_apply])
  · intro x
    obtain ⟨u, c', o', rfl⟩ : ∃ (u : Fin 1) (c' : Fin 64) (o' : Fin 128), x = ix3 u c' o' := ⟨x 0, x 1, x 2, eq_ix3 x⟩
    obtain rfl : u = 0 := Subsingleton.elim _ _
    refine (h0 c' o').trans ?_
    show E ⟨0, by decide⟩ o' = E ((r0_3.emb (ix3 (0 : Fin 1) c' o')) 0) ((r0_3.emb (ix3 (0 : Fin 1) c' o')) 2)
    congr 1 <;> exact Fin.ext (by simp [Rect.emb_apply])

/-- The output block after the body, at `(g, c, o)`, from the input blocks: the largest perceptron entry `o` over the rows
    of slab `g`. -/
theorem out_apply (x0 : Vec Ideal S8x256x128 .f32) (x1 : Vec Ideal S128x128 .f32) (x2 : Vec Ideal S1x128 .f32)
    (x3 : Vec Ideal S128x128 .f32) (x4 : Vec Ideal S1x128 .f32) (g : Fin 8) (c : Fin 64) (o : Fin 128) :
    out0_5 x0 x1 x2 x3 x4 (ix3 g c o) = slabMax x0 x1 x3 x2 x4 g o := by
  unfold out0_5
  simp only [View.ld_unit_zero (S := S8x256x128) zero3, View.ld_unit_zero (S := S128x128) zero2,
    View.ld_unit_zero (S := S1x128) zero2]
  exact canon_slabs _ _ _ _ _ _ _ _ (slabMax x0 x1 x3 x2 x4)
    (stored0 x0 x1 x3 x2 x4) (stored1 x0 x1 x3 x2 x4) (stored2 x0 x1 x3 x2 x4) (stored3 x0 x1 x3 x2 x4)
    (stored4 x0 x1 x3 x2 x4) (stored5 x0 x1 x3 x2 x4) (stored6 x0 x1 x3 x2 x4) (stored7 x0 x1 x3 x2 x4) g c o

end Cert.KernelIdeal.Block

end
-- ==== Proof.KernelValue.lean ====
/-
  THE KERNEL'S RESULT ARRAY.

  The kernel runs at two grid points; point t handles batch elements 8 t … 8 t + 7.  Its input block of the time series,
  reshaped before the call from [16, 64, 512] to [16, 256, 128], is rows 8 t … 8 t + 7: slab g of the block is batch element
  8 t + g, and row r of a slab is quarter r % 4 of channel r / 4 — block r of the specification (block_x).  The weights'
  blocks are the whole weight arrays and the bias blocks are the biases as one-row arrays.  So what point t writes back is
  the specification's G on rows 8 t … 8 t + 7 of the result (flushed_eq); the two points' blocks cover the result array
  (cover), which therefore ends holding G of the arguments (final, run).
-/
import proofs.«149732_j34351148434013_2_alg».proof.Proof.Gen.KernelIdeal.Frame
import proofs.«149732_j34351148434013_2_alg».proof.Proof.KernelBlock
import Idealize.ShloMosaic.Lib.Pipeline.Value
import Idealize.ShloMosaic.Lib.StableHlo.Run

set_option maxRecDepth 16384

noncomputable section

namespace Cert.KernelIdeal.Final

open Idealize.ShloMosaic Idealize.ShloMosaic.TcCoe Idealize.ShloMosaic.ValueIdx Idealize.SL.Sem
open Cert.KernelIdeal Cert.KernelIdeal.Gen Cert.KernelIdeal.Rows Cert.KernelIdeal.Block Cert.RowBias Cert.EdgeMax
open Idealize.ShloMosaic.Pipeline (Dat)

variable (m : (ℓ : Loc nD τ sig) → Buf (Elt Ideal) ℓ) (ρ : Dev nD → PrngReg)

/-- Where each window's block sits at point `t`: the time series' and the result's on batch rows `8 t …`, everything else
    at the origin (decided over the two points). -/
theorem idx_facts : ∀ t : Fin cfg0.N,
    win0_0.index t (0 : Fin 3) = win0_5.index t (0 : Fin 3) ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 3) = 0 ∧ win0_5.index t (2 : Fin 3) = 0 ∧ win0_5.index t (0 : Fin 3) ≤ 1 :=
  (by decide +kernel : ∀ t : Fin grid0.N, _)

/-- Both batch halves are some point's. -/
theorem idx_onto : ∀ q : Fin 2, ∃ t : Fin cfg0.N, win0_5.index t = ![q.val, 0, 0] :=
  (by decide +kernel : ∀ q : Fin 2, ∃ t : Fin grid0.N, win0_5.index t = ![q.val, 0, 0])

/-! ## The arrays the region finds -/

theorem V_series (c : Dev nD) : (V m c main_v0 : S16x256x128.Idx → EReal)
    = shapeCast S16x256x128 (m ((c : Thread nD τ).loc main_arg0)) shapeCasts_S16x64x512_S16x256x128 := by
  dsimp only [Gen.V, Gen.hostOps0]; after_results; rfl

theorem V_bias1 (c : Dev nD) : (V m c main_v1 : S1x128.Idx → EReal)
    = shapeCast S1x128 (m ((c : Thread nD τ).loc main_arg2)) shapeCasts_S128_S1x128 := by
  dsimp only [Gen.V, Gen.hostOps0]; after_results; rfl

theorem V_bias2 (c : Dev nD) : (V m c main_v2 : S1x128.Idx → EReal)
    = shapeCast S1x128 (m ((c : Thread nD τ).loc main_arg4)) shapeCasts_S128_S1x128 := by
  dsimp only [Gen.V, Gen.hostOps0]; after_results; rfl

/-! ## The input blocks at a point -/

/-- Slab `g`, row `r` of the time series' block at point `t` is block `r` of batch element `8 t + g`. -/
theorem block_x (c : Dev nD) (t : Fin cfg0.N) (g : Fin 8) (r : Fin 256) (k : Fin 128) (b : Fin 16)
    (hb : b.val = win0_5.index t (0 : Fin 3) * 8 + g.val) :
    (iblk m c 0 t : S8x256x128.Idx → EReal) (ix3 g r k) = blk (m ((c : Thread nD τ).loc main_arg0)) b r k := by
  show V m c main_v0 (((cfg0.win 0).blk t).view.emb (ix3 g r k)) = _
  rw [V_series]
  unfold blk
  refine shapeCast_apply (s := S16x64x512) (t := S16x256x128) _ _ _ _ ?_
  rw [Shape.rowMajor_val_three, Shape.rowMajor_val_three]
  obtain ⟨e0, e1, e2, -⟩ := idx_facts t
  have hr := r.isLt; have hk := k.isLt
  show (b.val * 64 + r.val / 4) * 512 + (r.val % 4 * 128 + k.val)
    = ((win0_0.index t (0 : Fin 3) * 8 + 1 * g.val) * 256 + (win0_0.index t (1 : Fin 3) * 256 + 1 * r.val)) * 128
      + (win0_0.index t (2 : Fin 3) * 128 + 1 * k.val)
  omega

theorem block_w1 (c : Dev nD) (t : Fin cfg0.N) : (iblk m c 1 t : S128x128.Idx → EReal) = (m ((c : Thread nD τ).loc main_arg1)) := by
  funext y
  show V m c main_arg1 (((cfg0.win 1).blk t).view.emb y) = _
  rw [V_main_arg1]
  obtain ⟨-, -, -, e0, e1, -⟩ := idx_facts t
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

theorem block_w2 (c : Dev nD) (t : Fin cfg0.N) : (iblk m c 3 t : S128x128.Idx → EReal) = (m ((c : Thread nD τ).loc main_arg3)) := by
  funext y
  show V m c main_arg3 (((cfg0.win 3).blk t).view.emb y) = _
  rw [V_main_arg3]
  obtain ⟨-, -, -, -, -, -, -, e0, e1, -⟩ := idx_facts t
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem block_b1 (c : Dev nD) (t : Fin cfg0.N) : unrow (iblk m c 2 t : S1x128.Idx → EReal) = (m ((c : Thread nD τ).loc main_arg2)) := by
  have e : (iblk m c 2 t : S1x128.Idx → EReal) = shapeCast S1x128 (m ((c : Thread nD τ).loc main_arg2)) shapeCasts_S128_S1x128 := by
    funext y
    show V m c main_v1 (((cfg0.win 2).blk t).view.emb y) = _
    rw [V_bias1]
    obtain ⟨-, -, -, -, -, e0, e1, -⟩ := idx_facts t
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega
  rw [e, unrow_cast]

theorem block_b2 (c : Dev nD) (t : Fin cfg0.N) : unrow (iblk m c 4 t : S1x128.Idx → EReal) = (m ((c : Thread nD τ).loc main_arg4)) := by
  have e : (iblk m c 4 t : S1x128.Idx → EReal) = shapeCast S1x128 (m ((c : Thread nD τ).loc main_arg4)) shapeCasts_S128_S1x128 := by
    funext y
    show V m c main_v2 (((cfg0.win 4).blk t).view.emb y) = _
    rw [V_bias2]
    obtain ⟨-, -, -, -, -, -, -, -, -, e0, e1, -⟩ := idx_facts t
    refine congrArg _ (funext fun a => Fin.ext ?_)
    match a with
    | ⟨0, _⟩ => show win0_4.index t (0 : Fin 2) * 1 + 1 * (y 0).val = (y 0).val; omega
    | ⟨1, _⟩ => show win0_4.index t (1 : Fin 2) * 128 + 1 * (y 1).val = (y 1).val; omega
  rw [e, unrow_cast]

/-! ## From a point's blocks to the specification -/

/-- A slab's maximum over blocks that are the specification's blocks of batch element `b` is `G` at `(b, c, o)`. -/
theorem slab_eq (x0 : Vec Ideal S8x256x128 .f32) (x1 : Vec Ideal S128x128 .f32) (x2 : Vec Ideal S1x128 .f32)
    (x3 : Vec Ideal S128x128 .f32) (x4 : Vec Ideal S1x128 .f32)
    (X : Xs.Idx → EReal) (W1 : Ws.Idx → EReal) (b1 : Bs.Idx → EReal) (W2 : Ws.Idx → EReal) (b2 : Bs.Idx → EReal)
    (b : Fin 16) (g : Fin 8) (c : Fin 64) (o : Fin 128)
    (h0 : ∀ r k, x0 (ix3 g r k) = blk X b r k) (h1 : x1 = W1) (h2 : unrow x2 = b1) (h3 : x3 = W2) (h4 : unrow x4 = b2) :
    slabMax x0 x1 x3 x2 x4 g o = G X W1 b1 W2 b2 (ix3 b c o) := by
  subst h1 h2 h3 h4
  unfold slabMax
  rw [G_apply]
  congr 1
  funext r
  exact congrArg (fun row => mlp x1 (unrow x2) x3 (unrow x4) row o) (funext fun k => h0 r k)

/-- What point `t` writes back is its block of `G` of the arguments. -/
theorem flushed_eq (c : Dev nD) (t : Fin cfg0.N) :
    (dats m 0 c).flushed 5 t = ((cfg0.win 5).blk t).view.read (Elt Ideal) (G (m ((c : Thread nD τ).loc main_arg0)) (m ((c : Thread nD τ).loc main_arg1)) (m ((c : Thread nD τ).loc main_arg2)) (m ((c : Thread nD τ).loc main_arg3)) (m ((c : Thread nD τ).loc main_arg4))) := by
  show (cfg0.win 5).cut (grid0.coords t) ((dats m 0 c).after 5 t) = _
  rw [after0_5]
  funext y
  obtain ⟨g, c', o, rfl⟩ : ∃ (g : Fin 8) (c' : Fin 64) (o : Fin 128), (y : S8x64x128.Idx) = ix3 g c' o :=
    ⟨y 0, y 1, y 2, eq_ix3 y⟩
  obtain ⟨-, -, -, -, -, -, -, -, -, -, -, e1, e2, e3⟩ := idx_facts t
  have hg := g.isLt
  have he : ((cfg0.win 5).blk t).view.emb (ix3 g c' o)
      = ix3 (⟨win0_5.index t (0 : Fin 3) * 8 + g.val, by omega⟩ : Fin 16) c' o :=
    funext fun a => Fin.ext (by
      match a with
      | ⟨0, _⟩ => show win0_5.index t (0 : Fin 3) * 8 + 1 * g.val = win0_5.index t (0 : Fin 3) * 8 + g.val; omega
      | ⟨1, _⟩ => show win0_5.index t (1 : Fin 3) * 64 + 1 * c'.val = c'.val; omega
      | ⟨2, _⟩ => show win0_5.index t (2 : Fin 3) * 128 + 1 * o.val = o.val; omega)
  show out0_5 (iblk m c 0 t) (iblk m c 1 t) (iblk m c 2 t) (iblk m c 3 t) (iblk m c 4 t) (ix3 g c' o)
    = (G (m ((c : Thread nD τ).loc main_arg0)) (m ((c : Thread nD τ).loc main_arg1)) (m ((c : Thread nD τ).loc main_arg2)) (m ((c : Thread nD τ).loc main_arg3)) (m ((c : Thread nD τ).loc main_arg4))) (((cfg0.win 5).blk t).view.emb (ix3 g c' o))
  rw [he]
  refine (out_apply (iblk m c 0 t) (iblk m c 1 t) (iblk m c 2 t) (iblk m c 3 t) (iblk m c 4 t) g c' o).trans ?_
  exact slab_eq (iblk m c 0 t) (iblk m c 1 t) (iblk m c 2 t) (iblk m c 3 t) (iblk m c 4 t) _ _ _ _ _ _ g c' o
    (fun r k => block_x m c t g r k _ rfl) (block_w1 m c t) (block_b1 m c t) (block_w2 m c t) (block_b2 m c t)

/-! ## The cover and the run -/

theorem mem_blk (t : Fin cfg0.N) (i : S16x64x128.Idx) :
    i ∈ ((cfg0.win 5).blk t).view.set ↔ ∀ a : Fin 3, win0_5.index t a * S8x64x128.size a ≤ (i a).val
      ∧ (i a).val < win0_5.index t a * S8x64x128.size a + S8x64x128.size a := by
  show i ∈ ((View.whole main_v3).slice (win0_5.rect t)).set ↔ _
  rw [View.set_slice_whole, Rect.mem_set_unit]
  exact Iff.rfl

/-- Every entry of the result array is in the block of the point of its batch half. -/
theorem cover (i : S16x64x128.Idx) :
    ∃ t : Fin cfg0.N, (cfg0.win 5).flush t = true ∧ i ∈ ((cfg0.win 5).blk t).view.set := by
  have h0 : (i 0).val < 16 := (i 0).isLt
  have h1 : (i 1).val < 64 := (i 1).isLt
  have h2 : (i 2).val < 128 := (i 2).isLt
  obtain ⟨t, ht⟩ := idx_onto ⟨(i 0).val / 8, by omega⟩
  have q0 : win0_5.index t (0 : Fin 3) = (i 0).val / 8 := congrFun ht 0
  have q1 : win0_5.index t (1 : Fin 3) = 0 := congrFun ht 1
  have q2 : win0_5.index t (2 : Fin 3) = 0 := congrFun ht 2
  refine ⟨t, flush0_5 t, ?_⟩
  rw [mem_blk]
  intro a
  match a with
  | ⟨0, _⟩ => show win0_5.index t (0 : Fin 3) * 8 ≤ (i 0).val ∧ (i 0).val < win0_5.index t (0 : Fin 3) * 8 + 8; omega
  | ⟨1, _⟩ => show win0_5.index t (1 : Fin 3) * 64 ≤ (i 1).val ∧ (i 1).val < win0_5.index t (1 : Fin 3) * 64 + 64; omega
  | ⟨2, _⟩ => show win0_5.index t (2 : Fin 3) * 128 ≤ (i 2).val ∧ (i 2).val < win0_5.index t (2 : Fin 3) * 128 + 128; omega

/-- The result array after the run is `G` of the arguments. -/
theorem final (c : Dev nD) : (dats m 0 c).arrAt 5 cfg0.N = (G (m ((c : Thread nD τ).loc main_arg0)) (m ((c : Thread nD τ).loc main_arg1)) (m ((c : Thread nD τ).loc main_arg2)) (m ((c : Thread nD τ).loc main_arg3)) (m ((c : Thread nD τ).loc main_arg4))) :=
  (dats m 0 c).arrAt_eq_of_cover 5 _ (fun t _ => flushed_eq m c t) cover

/-- Every weakly fair execution of the kernel program ends with the result array at `G` of the arguments and the arguments
    unchanged. -/
theorem run : θ_run defs (onTc (τ := τ) (main (F := Ideal))) ⟨m, fun _ => 0, ρ⟩ fun r => ∀ c : Dev nD,
      r.2.mem ((c : Thread nD τ).loc main_v3) = (G (m ((c : Thread nD τ).loc main_arg0)) (m ((c : Thread nD τ).loc main_arg1)) (m ((c : Thread nD τ).loc main_arg2)) (m ((c : Thread nD τ).loc main_arg3)) (m ((c : Thread nD τ).loc main_arg4)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 5).trans (final m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c)⟩)
    (run_main m ρ)

end Cert.KernelIdeal.Final

end
-- ==== Proof.RefPairs.lean ====
/-
  THE REFERENCE'S ROWS.

  The reference pairs every channel c1 with every channel c2 of a batch element, puts the 512 time steps of c1 and the 512
  of c2 side by side (1024 numbers), and reads the whole array again as rows of 128 numbers: 8 rows per pair.  With the
  pairs of (b, c1) numbered by t = 8 * c2 + q, row t is quarter q of channel c1 when q < 4 and quarter q - 4 of channel c2
  otherwise (pairs_row): the list of 512 rows of the specification.  Also: which operand entries an entry of the
  reference's matrix products reads.
-/
import proofs.«149732_j34351148434013_2_alg».proof.Proof.Gen.ReferenceIdeal.Read
import proofs.«149732_j34351148434013_2_alg».proof.Proof.EdgeSpec
import Idealize.ShloMosaic.Lib.Pipeline.Value

noncomputable section

open scoped BigOperators

namespace Cert.ReferenceIdeal.Rows

open Idealize.ShloMosaic Idealize.ShloMosaic.ValueIdx Cert.ReferenceIdeal Cert.ReferenceIdeal.Read
open Cert.DenseRow Cert.RowBias Cert.DenseStep Cert.EdgeMax

/-- The operand entry a product entry `(p, c)` reads at contraction coordinate `k`: `(p, k)`. -/
theorem dot_lhs : ∀ (p : Fin 524288) (c : Fin 128) (k : Fin 128),
    dot_S524288x128_S128x128_S524288x128_1_0_0_1_n_n.lhsIdx (ix2 p c) ((contrEquiv1 dot_S524288x128_S128x128_S524288x128_1_0_0_1_n_n 128 rfl rfl).symm k) = ix2 p k := by
  plain_lhs dot_S524288x128_S128x128_S524288x128_1_0_0_1_n_n 128

/-- … and the weight entry: `(k, c)`. -/
theorem dot_rhs : ∀ (p : Fin 524288) (c : Fin 128) (k : Fin 128),
    dot_S524288x128_S128x128_S524288x128_1_0_0_1_n_n.rhsIdx (ix2 p c) ((contrEquiv1 dot_S524288x128_S128x128_S524288x128_1_0_0_1_n_n 128 rfl rfl).symm k) = ix2 k c := by
  plain_rhs dot_S524288x128_S128x128_S524288x128_1_0_0_1_n_n 128

/-- The row of the reshaped array that is row `t` of the pairs of `(b, c)`. -/
def rowOf (b : Fin 16) (c : Fin 64) (t : Fin 512) : Fin 524288 :=
  ⟨(b.val * 64 + c.val) * 512 + t.val, by have := b.isLt; have := c.isLt; have := t.isLt; omega⟩

/-- Row `t` of the pairs of `(b, c)` is block `jOf c t` of batch element `b`. -/
theorem pairs_row (x0 : S16x64x512.Idx → EReal) (b : Fin 16) (c : Fin 64) (t : Fin 512) (k : Fin 128) :
    val_main_v5 (F := Ideal) x0 (ix2 (rowOf b c t) k) = blk x0 b (jOf c t) k := by
  have hb := b.isLt; have hc := c.isLt; have ht := t.isLt; have hk := k.isLt
  rw [val_main_v5_apply]
  unfold val_main_v4
  by_cases hq : t.val % 8 < 4
  · refine (concatenate_pair_apply_left (t := S16x64x64x1024) (s₁ := S16x64x64x512) (s₂ := S16x64x64x512) (3 : Fin 4) _ _ _ _ rfl
      (ix4 b c (⟨t.val / 8, by omega⟩ : Fin 64) (⟨t.val % 8 * 128 + k.val, by omega⟩ : Fin 512)) (fun a => ?_)).trans ?_
    · match a with
      | ⟨0, _⟩ => show b.val = (((b.val * 64 + c.val) * 512 + t.val) * 128 + k.val) / 4194304; omega
      | ⟨1, _⟩ => show c.val = (((b.val * 64 + c.val) * 512 + t.val) * 128 + k.val) / 65536 % 64; omega
      | ⟨2, _⟩ => show t.val / 8 = (((b.val * 64 + c.val) * 512 + t.val) * 128 + k.val) / 1024 % 64; omega
      | ⟨3, _⟩ => show t.val % 8 * 128 + k.val = (((b.val * 64 + c.val) * 512 + t.val) * 128 + k.val) % 1024; omega
    · rw [val_main_v1_apply, val_main_v0_apply]
      unfold blk jOf
      rw [dif_pos hq]
      refine congrArg x0 (funext fun a => Fin.ext ?_)
      match a with
      | ⟨0, _⟩ => rfl
      | ⟨1, _⟩ => show c.val = (c.val * 4 + t.val % 8) / 4; omega
      | ⟨2, _⟩ => show t.val % 8 * 128 + k.val = (c.val * 4 + t.val % 8) % 4 * 128 + k.val; omega
  · refine (concatenate_pair_apply_right (t := S16x64x64x1024) (s₁ := S16x64x64x512) (s₂ := S16x64x64x512) (3 : Fin 4) _ _ _ _ rfl rfl
      (ix4 b c (⟨t.val / 8, by omega⟩ : Fin 64) (⟨(t.val % 8 - 4) * 128 + k.val, by omega⟩ : Fin 512)) (fun a ha => ?_) ?_).trans ?_
    · match a with
      | ⟨0, _⟩ => show b.val = (((b.val * 64 + c.val) * 512 + t.val) * 128 + k.val) / 4194304; omega
      | ⟨1, _⟩ => show c.val = (((b.val * 64 + c.val) * 512 + t.val) * 128 + k.val) / 65536 % 64; omega
      | ⟨2, _⟩ => show t.val / 8 = (((b.val * 64 + c.val) * 512 + t.val) * 128 + k.val) / 1024 % 64; omega
      | ⟨3, _⟩ => exact absurd rfl ha
    · show (t.val % 8 - 4) * 128 + k.val + 512 = (((b.val * 64 + c.val) * 512 + t.val) * 128 + k.val) % 1024
      omega
    · rw [val_main_v3_apply, val_main_v2_apply]
      unfold blk jOf
      rw [dif_neg hq]
      refine congrArg x0 (funext fun a => Fin.ext ?_)
      match a with
      | ⟨0, _⟩ => rfl
      | ⟨1, _⟩ => show t.val / 8 = (t.val / 8 * 4 + (t.val % 8 - 4)) / 4; omega
      | ⟨2, _⟩ => show (t.val % 8 - 4) * 128 + k.val = (t.val / 8 * 4 + (t.val % 8 - 4)) % 4 * 128 + k.val; omega

end Cert.ReferenceIdeal.Rows

end
-- ==== Proof.RefRows.lean ====
/-
  THE REFERENCE, READ AT AN INDEX.

  Every row of the reference's reshaped all-pairs array goes through the perceptron (two host matrix products, each plus a
  bias broadcast over the rows, the rectifier between), and entry (b, c1, o) of the result is the maximum, folded from minus
  infinity, of entry o over the 512 rows of (b, c1).  Those rows are blocks of batch element b (RefPairs.pairs_row), so the
  result is the specification's G (ref_apply, ref_eq).
-/
import proofs.«149732_j34351148434013_2_alg».proof.Proof.RefPairs

noncomputable section

open scoped BigOperators

namespace Cert.ReferenceIdeal.Rows

open Idealize.ShloMosaic Idealize.ShloMosaic.ValueIdx Cert.ReferenceIdeal Cert.ReferenceIdeal.Gen Cert.ReferenceIdeal.Read
open Cert.DenseRow Cert.RowBias Cert.DenseStep Cert.EdgeMax

/-- The reference's result at `(b, c, o)` is the specification's. -/
theorem ref_apply (x0 : S16x64x512.Idx → EReal) (x1 : S128x128.Idx → EReal) (x2 : S128.Idx → EReal)
    (x3 : S128x128.Idx → EReal) (x4 : S128.Idx → EReal) (b : Fin 16) (c : Fin 64) (o : Fin 128) :
    val_main_v16 (F := Ideal) x0 x1 x2 x3 x4 (ix3 b c o) = G x0 x1 x2 x3 x4 (ix3 b c o) := by
  have hb := b.isLt; have hc := c.isLt; have ho := o.isLt
  have hR : S16x64x512x128.Reduces [2] S16x64x128 := by decide
  unfold val_main_v16
  refine (Host.reduce_eq_fold_single FloatOps.maximumf _ _ reducesTo_S16x64x512x128_S16x64x128_d2
    hR h_S_ (ix3 b c o)).trans ?_
  rw [← list_max_eq_G]
  show (Finset.univ : Finset (Fin 512)).fold max ninf _ = _
  congr 1
  funext t
  have ht : t.val < 512 := t.isLt
  rw [Function.comp_apply, val_main_v15_apply]
  have e : idx_main_v15 (hR.lift (ix3 b c o) t) = ix2 (rowOf b c t) o :=
    funext fun a => Fin.ext (by
      match a with
      | ⟨0, _⟩ => show (((b.val * 64 + c.val) * 512 + t.val) * 128 + o.val) / 128 = (b.val * 64 + c.val) * 512 + t.val; omega
      | ⟨1, _⟩ => show (((b.val * 64 + c.val) * 512 + t.val) * 128 + o.val) % 128 = o.val; omega)
  rw [e]
  unfold val_main_v14 val_main_v11 val_main_v13 val_main_v12 val_main_v10 val_main_call0_v0 val_main_call0_cst val_main_v9
    val_main_v6 val_main_v8 val_main_v7
  exact hlayer_row dot_S524288x128_S128x128_S524288x128_1_0_0_1_n_n rfl rfl dot_lhs dot_rhs _ x3 (rowOf b c t)
    (act zf (layer (blk x0 b (jOf c t)) (fun k j => x1 (ix2 k j)) (fun j => x2 (ix1 j))))
    (fun k => hlayer_relu_row dot_S524288x128_S128x128_S524288x128_1_0_0_1_n_n rfl rfl dot_lhs dot_rhs _ x1 (rowOf b c t) (blk x0 b (jOf c t)) (pairs_row x0 b c t)
      x2 _ _ _ k) x4 _ _ o

/-- The reference's whole result array is the specification's. -/
theorem ref_eq (x0 : S16x64x512.Idx → EReal) (x1 : S128x128.Idx → EReal) (x2 : S128.Idx → EReal)
    (x3 : S128x128.Idx → EReal) (x4 : S128.Idx → EReal) :
    val_main_v16 (F := Ideal) x0 x1 x2 x3 x4 = G x0 x1 x2 x3 x4 := by
  funext i
  obtain ⟨b, c, o, rfl⟩ : ∃ (b : Fin 16) (c : Fin 64) (o : Fin 128), i = ix3 b c o := ⟨i 0, i 1, i 2, eq_ix3 i⟩
  exact ref_apply x0 x1 x2 x3 x4 b c o

end Cert.ReferenceIdeal.Rows

end
-- ==== Proof.lean ====
/-
  The proof of `Cert.Claim`: the kernel (a perceptron on every 128-block of the time series, then per batch element the
  maximum over its 256 blocks, repeated over the 64 channels) against the reference (all pairs of channels, their time series
  side by side, re-read as rows of 128, the perceptron on every row, the maximum over the 512 rows of each (batch element,
  channel)).

  The three frames are the generated ones (the reference's is its generated run with the result dropped), and the
  idealization rewrote nothing.  For the value claim both programs end with their result array at ONE function of the
  argument arrays, Cert.EdgeMax.G: the kernel by KernelValue.lean (its two grid points' blocks are G on the two batch halves),
  the reference by RefRows.lean (the 512 rows of (b, c1) are blocks of batch element b, and they run through all 256 of
  them, so the two maxima are of the same set of values).  At the ideal values a change of float format is the identity and a
  matrix product is the plain sum, the same on both sides; the precondition is not used.
-/
import proofs.«149732_j34351148434013_2_alg».proof.Defs
import proofs.«149732_j34351148434013_2_alg».proof.Proof.Gen.Kernel
import proofs.«149732_j34351148434013_2_alg».proof.Proof.Gen.Kernel.Skeleton
import proofs.«149732_j34351148434013_2_alg».proof.Proof.Gen.Kernel.Launch
import proofs.«149732_j34351148434013_2_alg».proof.Proof.Gen.Kernel.Points
import proofs.«149732_j34351148434013_2_alg».proof.Proof.Gen.Kernel.Frame
import proofs.«149732_j34351148434013_2_alg».proof.Proof.Gen.KernelIdeal
import proofs.«149732_j34351148434013_2_alg».proof.Proof.Gen.KernelIdeal.Skeleton
import proofs.«149732_j34351148434013_2_alg».proof.Proof.Gen.KernelIdeal.Launch
import proofs.«149732_j34351148434013_2_alg».proof.Proof.Gen.KernelIdeal.Points
import proofs.«149732_j34351148434013_2_alg».proof.Proof.Gen.KernelIdeal.Frame
import proofs.«149732_j34351148434013_2_alg».proof.Proof.Gen.ReferenceIdeal
import proofs.«149732_j34351148434013_2_alg».proof.Proof.Gen.ReferenceIdeal.Run
import proofs.«149732_j34351148434013_2_alg».proof.Proof.Gen.ReferenceIdeal.Read
import proofs.«149732_j34351148434013_2_alg».proof.Proof.Gen.Pre_finite_inputs
import proofs.«149732_j34351148434013_2_alg».proof.Proof.KernelValue
import proofs.«149732_j34351148434013_2_alg».proof.Proof.RefRows
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with their result at `G` of arguments that agree. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v16_eq _ _ _ _ _).trans (Cert.ReferenceIdeal.Rows.ref_eq _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
